-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x8x128x128x128 : Shape := ⟨5, ![2, 8, 128, 128, 128]⟩
abbrev S_ : Shape := ⟨0, ![]⟩

class Facts : Prop where
  bcast_S_S2x8x128x128x128 : S_.BroadcastsInDim S2x8x128x128x128 (![] : Fin 0 → Fin S2x8x128x128x128.rank)
  reducesTo_S2x8x128x128x128_S_d0_1_2_3_4 : S2x8x128x128x128.ReducesTo [0, 1, 2, 3, 4] S_
  h_S_ : 0 < S_.numel

variable [Facts]

def fn {F : FTy → Type} [FloatOps F] (main_arg0 : FVec F S2x8x128x128x128 .f32) (main_arg1 : FVec F S2x8x128x128x128 .f32) : IVec S_ 1 :=
  let main_v0 : FVec F S2x8x128x128x128 .f32 := Host.absf main_arg0
  let main_cst : FVec F S_ .f32 := constant S_ .f32 0x7F800000#32
  let main_v1 : FVec F S2x8x128x128x128 .f32 := broadcastInDim S2x8x128x128x128 ![] bcast_S_S2x8x128x128x128 main_cst
  let main_v2 : IVec S2x8x128x128x128 1 := cmpf .olt main_v0 main_v1
  let main_c : IVec S_ 1 := constantI S_ 1 1#1
  let main_v3 : IVec S_ 1 := (fun x v => Host.reduce IntOp.andi x v reducesTo_S2x8x128x128x128_S_d0_1_2_3_4 h_S_) main_v2 main_c
  let main_v4 : FVec F S2x8x128x128x128 .f32 := Host.absf main_arg1
  let main_cst_0 : FVec F S_ .f32 := constant S_ .f32 0x7F800000#32
  let main_v5 : FVec F S2x8x128x128x128 .f32 := broadcastInDim S2x8x128x128x128 ![] bcast_S_S2x8x128x128x128 main_cst_0
  let main_v6 : IVec S2x8x128x128x128 1 := cmpf .olt main_v4 main_v5
  let main_c_1 : IVec S_ 1 := constantI S_ 1 1#1
  let main_v7 : IVec S_ 1 := (fun x v => Host.reduce IntOp.andi x v reducesTo_S2x8x128x128x128_S_d0_1_2_3_4 h_S_) main_v6 main_c_1
  let main_v8 : IVec S_ 1 := andi main_v3 main_v7
  main_v8
-- ==== Kernel.lean ====
abbrev S2x8x128x128x128 : Shape := ⟨5, ![2, 8, 128, 128, 128]⟩
abbrev S16x128x16384 : Shape := ⟨3, ![16, 128, 16384]⟩
abbrev S16x1x1 : Shape := ⟨3, ![16, 1, 1]⟩
abbrev S1x128x16384 : Shape := ⟨3, ![1, 128, 16384]⟩
abbrev S1x1x1 : Shape := ⟨3, ![1, 1, 1]⟩
abbrev S1x16384 : Shape := ⟨2, ![1, 16384]⟩
abbrev S1x8x16384 : Shape := ⟨3, ![1, 8, 16384]⟩
abbrev S8x16384 : Shape := ⟨2, ![8, 16384]⟩
abbrev S16384 : Shape := ⟨1, ![16384]⟩
abbrev S1 : Shape := ⟨1, ![1]⟩
abbrev S1x1 : Shape := ⟨2, ![1, 1]⟩
abbrev S16 : Shape := ⟨1, ![16]⟩
abbrev S_ : Shape := ⟨0, ![]⟩

abbrev nBuf : Space → Nat
  | .hbm => 32
  | .vmem => 8
  | .smem => 0
  | _ => 0

abbrev bufTy : (tb : Table) → Fin (tcTables nBuf tb) → BufTy
  | .hbm, ⟨0, _⟩ => ⟨S2x8x128x128x128, .f32⟩
  | .hbm, ⟨1, _⟩ => ⟨S2x8x128x128x128, .f32⟩
  | .hbm, ⟨2, _⟩ => ⟨S16x128x16384, .f32⟩
  | .hbm, ⟨3, _⟩ => ⟨S16x128x16384, .f32⟩
  | .hbm, ⟨4, _⟩ => ⟨S16x1x1, .f32⟩
  | .hbm, ⟨5, _⟩ => ⟨S16x1x1, .f32⟩
  | .hbm, ⟨6, _⟩ => ⟨S16, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S16, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S_, .f32⟩
  | .hbm, ⟨22, _⟩ => ⟨S16, .f32⟩
  | .hbm, ⟨23, _⟩ => ⟨S16, .f32⟩
  | .hbm, ⟨24, _⟩ => ⟨S16, .f32⟩
  | .hbm, ⟨25, _⟩ => ⟨S_, .f32⟩
  | .hbm, ⟨26, _⟩ => ⟨S16, .f32⟩
  | .hbm, ⟨27, _⟩ => ⟨S16, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .local _ .vmem, ⟨0, _⟩ => ⟨S1x128x16384, .f32⟩
  | .local _ .vmem, ⟨1, _⟩ => ⟨S1x128x16384, .f32⟩
  | .local _ .vmem, ⟨2, _⟩ => ⟨S1x128x16384, .f32⟩
  | .local _ .vmem, ⟨3, _⟩ => ⟨S1x128x16384, .f32⟩
  | .local _ .vmem, ⟨4, _⟩ => ⟨S1x1x1, .f32⟩
  | .local _ .vmem, ⟨5, _⟩ => ⟨S1x1x1, .f32⟩
  | .local _ .vmem, ⟨6, _⟩ => ⟨S1x1x1, .f32⟩
  | .local _ .vmem, ⟨7, _⟩ => ⟨S1x1x1, .f32⟩
  | _, _ => ⟨S2x8x128x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_cst : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_cst_2 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_v6 : Ref sig .tc := ⟨.hbm, 23, rfl⟩
abbrev main_v7 : Ref sig .tc := ⟨.hbm, 24, rfl⟩
abbrev main_cst_3 : Ref sig .tc := ⟨.hbm, 25, rfl⟩
abbrev main_v8 : Ref sig .tc := ⟨.hbm, 26, rfl⟩
abbrev main_v9 : Ref sig .tc := ⟨.hbm, 27, rfl⟩
abbrev main_cst_4 : Ref sig .tc := ⟨.hbm, 28, rfl⟩
abbrev main_v10 : Ref sig .tc := ⟨.hbm, 29, rfl⟩
abbrev main_cst_5 : Ref sig .tc := ⟨.hbm, 30, rfl⟩
abbrev main_v11 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c16_i32 : BitVec 32 := 16#32
  let v2 : BitVec 32 := Scalar.addi c0_i32 c16_i32
  let c1_i32 : BitVec 32 := 1#32
  ⟨c0_i32, v2, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c8_i32 : BitVec 32 := 8#32
  let v24 : BitVec 32 := Scalar.muli arg5 c8_i32
  v24
def k0_off1 (k0_t1 : Fin k0_t1_loop.trips) : Fin 3 → Nat :=
  let c0_19 : Index := 0#32
  let c0_i32 : BitVec 32 := 0#32
  let c1_i32 : BitVec 32 := 1#32
  let arg5 : BitVec 32 := Scf.iv c0_i32 c1_i32 k0_t1
  let c8_i32 : BitVec 32 := 8#32
  let v24 : BitVec 32 := Scalar.muli arg5 c8_i32
  let v25 : BitVec 32 := v24
  let v26 : Index := Scalar.indexCast v25
  let c0_20 : Index := 0#32
  ![0, v26.toNat, 0]
@[reducible] def k0_t2_loop : Scf.Loop 32 :=
  let c0_i32_8 : BitVec 32 := 0#32
  let c16_i32_9 : BitVec 32 := 16#32
  let v14 : BitVec 32 := Scalar.addi c0_i32_8 c16_i32_9
  let c1_i32_10 : BitVec 32 := 1#32
  ⟨c0_i32_8, v14, c1_i32_10⟩
def k0_mult2 (k0_t2 : Fin k0_t2_loop.trips) : BitVec 32 :=
  let c0_i32_8 : BitVec 32 := 0#32
  let c1_i32_10 : BitVec 32 := 1#32
  let arg5 : BitVec 32 := Scf.iv c0_i32_8 c1_i32_10 k0_t2
  let c8_i32 : BitVec 32 := 8#32
  let v24 : BitVec 32 := Scalar.muli arg5 c8_i32
  v24
def k0_off2 (k0_t2 : Fin k0_t2_loop.trips) : Fin 3 → Nat :=
  let c0_19 : Index := 0#32
  let c0_i32_8 : BitVec 32 := 0#32
  let c1_i32_10 : BitVec 32 := 1#32
  let arg5 : BitVec 32 := Scf.iv c0_i32_8 c1_i32_10 k0_t2
  let c8_i32 : BitVec 32 := 8#32
  let v24 : BitVec 32 := Scalar.muli arg5 c8_i32
  let v25 : BitVec 32 := v24
  let v26 : Index := Scalar.indexCast v25
  let c0_20 : Index := 0#32
  ![0, v26.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S2x8x128x128x128_S16x128x16384 : S2x8x128x128x128.ShapeCasts S16x128x16384
  h_S1x8x16384 : 0 < S1x8x16384.numel
  shapeCasts_S1x8x16384_S8x16384 : S1x8x16384.ShapeCasts S8x16384
  reduces_S8x16384_S16384 : S8x16384.Reduces [0] S16384
  shapeCasts_S16384_S1x16384 : S16384.ShapeCasts S1x16384
  reduces_S1x16384_S1 : S1x16384.Reduces [1] S1
  shapeCasts_S1_S1x1 : S1.ShapeCasts S1x1
  broadcasts_S1x1_S8x16384 : S1x1.Broadcasts S8x16384
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  shapeCasts_S16x1x1_S16 : S16x1x1.ShapeCasts S16
  bcast_S_S16 : S_.BroadcastsInDim S16 (![] : Fin 0 → Fin S16.rank)
  reducesTo_S16_S_d0 : S16.ReducesTo [0] S_
  h_S_ : 0 < S_.numel
  hrank0 : 0 < grid0.rank
  k0_t1_ok : k0_t1_loop.OK
  k0_mult1_dvd : ∀ k0_t1 : Fin k0_t1_loop.trips, 8 ∣ (k0_mult1 k0_t1).toNat
  k0_off1_inb : ∀ k0_t1 : Fin k0_t1_loop.trips, ∀ a, (k0_off1 k0_t1) a + S1x8x16384.size a ≤ S1x128x16384.size a
  k0_t2_ok : k0_t2_loop.OK
  k0_mult2_dvd : ∀ k0_t2 : Fin k0_t2_loop.trips, 8 ∣ (k0_mult2 k0_t2).toNat
  k0_off2_inb : ∀ k0_t2 : Fin k0_t2_loop.trips, ∀ a, (k0_off2 k0_t2) a + S1x8x16384.size a ≤ S1x128x16384.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x16384.size a ≤ S16x128x16384.size a
  hwx0_0 : ∀ i : grid0.Coords, EltTy.bits .f32 = 32 ∨ (Rect.block (s := S16x128x16384) S1x128x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x16384.size a ≤ S16x128x16384.size a
  hwx0_1 : ∀ i : grid0.Coords, EltTy.bits .f32 = 32 ∨ (Rect.block (s := S16x128x16384) S1x128x16384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S16x1x1.size a
  hwx0_2 : ∀ i : grid0.Coords, EltTy.bits .f32 = 32 ∨ (Rect.block (s := S16x1x1) S1x1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S16x1x1.size a
  hwx0_3 : ∀ i : grid0.Coords, EltTy.bits .f32 = 32 ∨ (Rect.block (s := S16x1x1) S1x1x1.size (cc0_transform_3 i) (hinb0_3 i)).WholeWords (EltTy.packing .f32)

variable [Facts₀]

abbrev win0_0 : Pipeline.Window sig grid0 :=
  Pipeline.Window.ofSpec (Memref.whole main_v0) S1x128x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x128x16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x1x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x1x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x8x128x128x128 : Shape := ⟨5, ![2, 8, 128, 128, 128]⟩
abbrev S_ : Shape := ⟨0, ![]⟩
abbrev S2x8 : Shape := ⟨2, ![2, 8]⟩
abbrev S2x8x1x1x1 : Shape := ⟨5, ![2, 8, 1, 1, 1]⟩

abbrev nBuf : Space → Nat
  | .hbm => 108
  | .vmem => 0
  | .smem => 0
  | _ => 0

abbrev bufTy : (tb : Table) → Fin (tcTables nBuf tb) → BufTy
  | .hbm, ⟨0, _⟩ => ⟨S2x8x128x128x128, .f32⟩
  | .hbm, ⟨1, _⟩ => ⟨S2x8x128x128x128, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S2x8x128x128x128, .f32⟩
  | .hbm, ⟨6, _⟩ => ⟨S2x8x128x128x128, .f32⟩
  | .hbm, ⟨7, _⟩ => ⟨S_, .f32⟩
  | .hbm, ⟨8, _⟩ => ⟨S2x8x128x128x128, .f32⟩
  | .hbm, ⟨9, _⟩ => ⟨S2x8x128x128x128, .f32⟩
  | .hbm, ⟨10, _⟩ => ⟨S_, .f32⟩
  | .hbm, ⟨11, _⟩ => ⟨S2x8, .f32⟩
  | .hbm, ⟨12, _⟩ => ⟨S2x8x1x1x1, .f32⟩
  | .hbm, ⟨13, _⟩ => ⟨S_, .f32⟩
  | .hbm, ⟨14, _⟩ => ⟨S_, .f32⟩
  | .hbm, ⟨15, _⟩ => ⟨S2x8x1x1x1, .f32⟩
  | .hbm, ⟨16, _⟩ => ⟨S2x8x1x1x1, .f32⟩
  | .hbm, ⟨17, _⟩ => ⟨S2x8x128x128x128, .f32⟩
  | .hbm, ⟨18, _⟩ => ⟨S2x8x128x128x128, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S2x8x128x128x128, .f32⟩
  | .hbm, ⟨23, _⟩ => ⟨S2x8x128x128x128, .f32⟩
  | .hbm, ⟨24, _⟩ => ⟨S_, .f32⟩
  | .hbm, ⟨25, _⟩ => ⟨S2x8x128x128x128, .f32⟩
  | .hbm, ⟨26, _⟩ => ⟨S2x8x128x128x128, .f32⟩
  | .hbm, ⟨27, _⟩ => ⟨S_, .f32⟩
  | .hbm, ⟨28, _⟩ => ⟨S2x8, .f32⟩
  | .hbm, ⟨29, _⟩ => ⟨S2x8x1x1x1, .f32⟩
  | .hbm, ⟨30, _⟩ => ⟨S_, .f32⟩
  | .hbm, ⟨31, _⟩ => ⟨S_, .f32⟩
  | .hbm, ⟨32, _⟩ => ⟨S2x8x1x1x1, .f32⟩
  | .hbm, ⟨33, _⟩ => ⟨S2x8x1x1x1, .f32⟩
  | .hbm, ⟨34, _⟩ => ⟨S2x8x128x128x128, .f32⟩
  | .hbm, ⟨35, _⟩ => ⟨S2x8x128x128x128, .f32⟩
  | .hbm, ⟨36, _⟩ => ⟨S2x8x128x128x128, .f32⟩
  | .hbm, ⟨37, _⟩ => ⟨S_, .f32⟩
  | .hbm, ⟨38, _⟩ => ⟨S2x8x128x128x128, .f32⟩
  | .hbm, ⟨39, _⟩ => ⟨S2x8x128x128x128, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S2x8x128x128x128, .f32⟩
  | .hbm, ⟨44, _⟩ => ⟨S2x8x128x128x128, .f32⟩
  | .hbm, ⟨45, _⟩ => ⟨S_, .f32⟩
  | .hbm, ⟨46, _⟩ => ⟨S2x8x128x128x128, .f32⟩
  | .hbm, ⟨47, _⟩ => ⟨S2x8x128x128x128, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S2x8x128x128x128, .f32⟩
  | .hbm, ⟨52, _⟩ => ⟨S2x8x128x128x128, .f32⟩
  | .hbm, ⟨53, _⟩ => ⟨S_, .f32⟩
  | .hbm, ⟨54, _⟩ => ⟨S2x8x128x128x128, .f32⟩
  | .hbm, ⟨55, _⟩ => ⟨S2x8x128x128x128, .f32⟩
  | .hbm, ⟨56, _⟩ => ⟨S2x8x128x128x128, .f32⟩
  | .hbm, ⟨57, _⟩ => ⟨S2x8x128x128x128, .f32⟩
  | .hbm, ⟨58, _⟩ => ⟨S2x8x128x128x128, .f32⟩
  | .hbm, ⟨59, _⟩ => ⟨S2x8x128x128x128, .f32⟩
  | .hbm, ⟨60, _⟩ => ⟨S_, .f32⟩
  | .hbm, ⟨61, _⟩ => ⟨S2x8, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S2x8, .f32⟩
  | .hbm, ⟨66, _⟩ => ⟨S2x8, .f32⟩
  | .hbm, ⟨67, _⟩ => ⟨S_, .f32⟩
  | .hbm, ⟨68, _⟩ => ⟨S2x8, .f32⟩
  | .hbm, ⟨69, _⟩ => ⟨S2x8, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S2x8x128x128x128, .f32⟩
  | .hbm, ⟨74, _⟩ => ⟨S2x8x128x128x128, .f32⟩
  | .hbm, ⟨75, _⟩ => ⟨S_, .f32⟩
  | .hbm, ⟨76, _⟩ => ⟨S2x8x128x128x128, .f32⟩
  | .hbm, ⟨77, _⟩ => ⟨S2x8x128x128x128, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S2x8x128x128x128, .f32⟩
  | .hbm, ⟨82, _⟩ => ⟨S2x8x128x128x128, .f32⟩
  | .hbm, ⟨83, _⟩ => ⟨S_, .f32⟩
  | .hbm, ⟨84, _⟩ => ⟨S2x8x128x128x128, .f32⟩
  | .hbm, ⟨85, _⟩ => ⟨S2x8x128x128x128, .f32⟩
  | .hbm, ⟨86, _⟩ => ⟨S2x8x128x128x128, .f32⟩
  | .hbm, ⟨87, _⟩ => ⟨S2x8x128x128x128, .f32⟩
  | .hbm, ⟨88, _⟩ => ⟨S2x8x128x128x128, .f32⟩
  | .hbm, ⟨89, _⟩ => ⟨S2x8x128x128x128, .f32⟩
  | .hbm, ⟨90, _⟩ => ⟨S_, .f32⟩
  | .hbm, ⟨91, _⟩ => ⟨S2x8, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S2x8, .f32⟩
  | .hbm, ⟨96, _⟩ => ⟨S2x8, .f32⟩
  | .hbm, ⟨97, _⟩ => ⟨S_, .f32⟩
  | .hbm, ⟨98, _⟩ => ⟨S2x8, .f32⟩
  | .hbm, ⟨99, _⟩ => ⟨S2x8, .f32⟩
  | .hbm, ⟨100, _⟩ => ⟨S2x8, .f32⟩
  | .hbm, ⟨101, _⟩ => ⟨S_, .f32⟩
  | .hbm, ⟨102, _⟩ => ⟨S2x8, .f32⟩
  | .hbm, ⟨103, _⟩ => ⟨S2x8, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | _, _ => ⟨S2x8x128x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_cst_1 : Ref sig .tc := ⟨.hbm, 10, rfl⟩
abbrev main_v1 : Ref sig .tc := ⟨.hbm, 11, rfl⟩
abbrev main_v2 : Ref sig .tc := ⟨.hbm, 12, rfl⟩
abbrev main_cst_2 : Ref sig .tc := ⟨.hbm, 13, rfl⟩
abbrev main_call1_v0 : Ref sig .tc := ⟨.hbm, 14, rfl⟩
abbrev main_call1_v1 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst_3 : Ref sig .tc := ⟨.hbm, 19, rfl⟩
abbrev main_cst_4 : Ref sig .tc := ⟨.hbm, 20, rfl⟩
abbrev main_call2_v0 : Ref sig .tc := ⟨.hbm, 21, rfl⟩
abbrev main_call2_v1 : Ref sig .tc := ⟨.hbm, 22, rfl⟩
abbrev main_call2_v2 : Ref sig .tc := ⟨.hbm, 23, rfl⟩
abbrev main_call2_v3 : Ref sig .tc := ⟨.hbm, 24, rfl⟩
abbrev main_call2_v4 : Ref sig .tc := ⟨.hbm, 25, rfl⟩
abbrev main_v6 : Ref sig .tc := ⟨.hbm, 26, rfl⟩
abbrev main_cst_5 : Ref sig .tc := ⟨.hbm, 27, rfl⟩
abbrev main_v7 : Ref sig .tc := ⟨.hbm, 28, rfl⟩
abbrev main_v8 : Ref sig .tc := ⟨.hbm, 29, rfl⟩
abbrev main_cst_6 : Ref sig .tc := ⟨.hbm, 30, rfl⟩
abbrev main_call3_v0 : Ref sig .tc := ⟨.hbm, 31, rfl⟩
abbrev main_call3_v1 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_cst_7 : Ref sig .tc := ⟨.hbm, 37, rfl⟩
abbrev main_v13 : Ref sig .tc := ⟨.hbm, 38, rfl⟩
abbrev main_v14 : Ref sig .tc := ⟨.hbm, 39, rfl⟩
abbrev main_cst_8 : Ref sig .tc := ⟨.hbm, 40, rfl⟩
abbrev main_cst_9 : Ref sig .tc := ⟨.hbm, 41, rfl⟩
abbrev main_call4_v0 : Ref sig .tc := ⟨.hbm, 42, rfl⟩
abbrev main_call4_v1 : Ref sig .tc := ⟨.hbm, 43, rfl⟩
abbrev main_call4_v2 : Ref sig .tc := ⟨.hbm, 44, rfl⟩
abbrev main_call4_v3 : Ref sig .tc := ⟨.hbm, 45, rfl⟩
abbrev main_call4_v4 : Ref sig .tc := ⟨.hbm, 46, rfl⟩
abbrev main_v15 : Ref sig .tc := ⟨.hbm, 47, rfl⟩
abbrev main_cst_10 : Ref sig .tc := ⟨.hbm, 48, rfl⟩
abbrev main_cst_11 : Ref sig .tc := ⟨.hbm, 49, rfl⟩
abbrev main_call5_v0 : Ref sig .tc := ⟨.hbm, 50, rfl⟩
abbrev main_call5_v1 : Ref sig .tc := ⟨.hbm, 51, rfl⟩
abbrev main_call5_v2 : Ref sig .tc := ⟨.hbm, 52, rfl⟩
abbrev main_call5_v3 : Ref sig .tc := ⟨.hbm, 53, rfl⟩
abbrev main_call5_v4 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_cst_12 : Ref sig .tc := ⟨.hbm, 60, rfl⟩
abbrev main_v21 : Ref sig .tc := ⟨.hbm, 61, rfl⟩
abbrev main_cst_13 : Ref sig .tc := ⟨.hbm, 62, rfl⟩
abbrev main_cst_14 : Ref sig .tc := ⟨.hbm, 63, rfl⟩
abbrev main_call6_v0 : Ref sig .tc := ⟨.hbm, 64, rfl⟩
abbrev main_call6_v1 : Ref sig .tc := ⟨.hbm, 65, rfl⟩
abbrev main_call6_v2 : Ref sig .tc := ⟨.hbm, 66, rfl⟩
abbrev main_call6_v3 : Ref sig .tc := ⟨.hbm, 67, rfl⟩
abbrev main_call6_v4 : Ref sig .tc := ⟨.hbm, 68, rfl⟩
abbrev main_v22 : Ref sig .tc := ⟨.hbm, 69, rfl⟩
abbrev main_cst_15 : Ref sig .tc := ⟨.hbm, 70, rfl⟩
abbrev main_cst_16 : Ref sig .tc := ⟨.hbm, 71, rfl⟩
abbrev main_call7_v0 : Ref sig .tc := ⟨.hbm, 72, rfl⟩
abbrev main_call7_v1 : Ref sig .tc := ⟨.hbm, 73, rfl⟩
abbrev main_call7_v2 : Ref sig .tc := ⟨.hbm, 74, rfl⟩
abbrev main_call7_v3 : Ref sig .tc := ⟨.hbm, 75, rfl⟩
abbrev main_call7_v4 : Ref sig .tc := ⟨.hbm, 76, rfl⟩
abbrev main_v23 : Ref sig .tc := ⟨.hbm, 77, rfl⟩
abbrev main_cst_17 : Ref sig .tc := ⟨.hbm, 78, rfl⟩
abbrev main_cst_18 : Ref sig .tc := ⟨.hbm, 79, rfl⟩
abbrev main_call8_v0 : Ref sig .tc := ⟨.hbm, 80, rfl⟩
abbrev main_call8_v1 : Ref sig .tc := ⟨.hbm, 81, rfl⟩
abbrev main_call8_v2 : Ref sig .tc := ⟨.hbm, 82, rfl⟩
abbrev main_call8_v3 : Ref sig .tc := ⟨.hbm, 83, rfl⟩
abbrev main_call8_v4 : Ref sig .tc := ⟨.hbm, 84, rfl⟩
abbrev main_v24 : Ref sig .tc := ⟨.hbm, 85, rfl⟩
abbrev main_v25 : Ref sig .tc := ⟨.hbm, 86, rfl⟩
abbrev main_v26 : Ref sig .tc := ⟨.hbm, 87, rfl⟩
abbrev main_v27 : Ref sig .tc := ⟨.hbm, 88, rfl⟩
abbrev main_v28 : Ref sig .tc := ⟨.hbm, 89, rfl⟩
abbrev main_cst_19 : Ref sig .tc := ⟨.hbm, 90, rfl⟩
abbrev main_v29 : Ref sig .tc := ⟨.hbm, 91, rfl⟩
abbrev main_cst_20 : Ref sig .tc := ⟨.hbm, 92, rfl⟩
abbrev main_cst_21 : Ref sig .tc := ⟨.hbm, 93, rfl⟩
abbrev main_call9_v0 : Ref sig .tc := ⟨.hbm, 94, rfl⟩
abbrev main_call9_v1 : Ref sig .tc := ⟨.hbm, 95, rfl⟩
abbrev main_call9_v2 : Ref sig .tc := ⟨.hbm, 96, rfl⟩
abbrev main_call9_v3 : Ref sig .tc := ⟨.hbm, 97, rfl⟩
abbrev main_call9_v4 : Ref sig .tc := ⟨.hbm, 98, rfl⟩
abbrev main_v30 : Ref sig .tc := ⟨.hbm, 99, rfl⟩
abbrev main_v31 : Ref sig .tc := ⟨.hbm, 100, rfl⟩
abbrev main_cst_22 : Ref sig .tc := ⟨.hbm, 101, rfl⟩
abbrev main_v32 : Ref sig .tc := ⟨.hbm, 102, rfl⟩
abbrev main_v33 : Ref sig .tc := ⟨.hbm, 103, rfl⟩
abbrev main_cst_23 : Ref sig .tc := ⟨.hbm, 104, rfl⟩
abbrev main_v34 : Ref sig .tc := ⟨.hbm, 105, rfl⟩
abbrev main_cst_24 : Ref sig .tc := ⟨.hbm, 106, rfl⟩
abbrev main_v35 : Ref sig .tc := ⟨.hbm, 107, rfl⟩

abbrev nD : Nat := 1
abbrev τ : Topo := Topo.v7x

variable {F : FTy → Type} [FloatOps F]

class Facts₀ : Prop where
  bcast_S_S2x8x128x128x128 : S_.BroadcastsInDim S2x8x128x128x128 (![] : Fin 0 → Fin S2x8x128x128x128.rank)
  reducesTo_S2x8x128x128x128_S2x8_d2_3_4 : S2x8x128x128x128.ReducesTo [2, 3, 4] S2x8
  h_S_ : 0 < S_.numel
  bcast_S2x8_S2x8x1x1x1_0_1 : S2x8.BroadcastsInDim S2x8x1x1x1 (![0, 1] : Fin 2 → Fin S2x8x1x1x1.rank)
  bcast_S_S2x8x1x1x1 : S_.BroadcastsInDim S2x8x1x1x1 (![] : Fin 0 → Fin S2x8x1x1x1.rank)
  bcast_S2x8x1x1x1_S2x8x128x128x128_0_1_2_3_4 : S2x8x1x1x1.BroadcastsInDim S2x8x128x128x128 (![0, 1, 2, 3, 4] : Fin 5 → Fin S2x8x128x128x128.rank)
  bcast_S_S2x8 : S_.BroadcastsInDim S2x8 (![] : Fin 0 → Fin S2x8.rank)
  reducesTo_S2x8_S_d0_1 : S2x8.ReducesTo [0, 1] S_

variable [Facts₀]

class Facts : Prop extends Facts₀ where

variable [Facts]
-- ==== Proof.RowMath.lean ====
/-
  The mathematics both programs compute, on the extended reals, with every float literal kept as the exact value of its
  bit pattern (the two programs print the same patterns, so none is ever evaluated).

  For one (batch, channel) row with heat-map entries `u i` and ground-truth entries `v i`, `i` ranging over a finite
  set `s` of positions:
    h i = clamp (u i) to [1e-6, 1e6],  g i = clamp (v i) likewise,
    P = max ε (∑ h),  Q = max ε (∑ g),   p i = h i / P,  q i = g i / Q,  m i = ½ (p i + q i),
    KLp = ∑ clampP (p i) · (log (clampP (p i)) − log (clampP (m i))),  KLq likewise with q,
    JS  = ½ (clamp KLp to [0, 1000] + clamp KLq to [0, 1000]).
  The row value depends on the positions only through three sums over `s`, so it is unchanged when the positions are
  re-indexed along a bijection (`rowJSOn_reindex`): this is the one law that joins a kernel summing a row in sixteen
  trips of eight sublanes by 16384 lanes and a reference summing it over three spatial axes at once.
-/
import Idealize.ShloMosaic.PureOps.Ideal
import Idealize.ShloMosaic.Lib.ValueIdx

noncomputable section

namespace Cert.RowMath

open Idealize.ShloMosaic Idealize.ShloMosaic.ValueIdx
open scoped BigOperators

/-- An input entry clamped to `[1e-6, 1e6]` (the lower bound applied first). -/
def clampIn (x : EReal) : EReal :=
  min (Ideal.ofBits .f32 0x49742400#32) (max (Ideal.ofBits .f32 0x358637BD#32) x)

/-- A row total kept away from zero: `max ε S`. -/
def den (S : EReal) : EReal := max (Ideal.ofBits .f32 0x179ABE15#32) S

/-- A probability clamped to `[ε, 1]`. -/
def clampP (x : EReal) : EReal :=
  min (Ideal.ofBits .f32 0x3F800000#32) (max (Ideal.ofBits .f32 0x179ABE15#32) x)

/-- The mixture `½ (p + q)`. -/
def mix (p q : EReal) : EReal := Ideal.ofBits .f32 0x3F000000#32 * (p + q)

/-- One position's Kullback–Leibler term of `p` against the mixture `m`, both clamped. -/
def klTerm (p m : EReal) : EReal := clampP p * (Ideal.log (clampP p) - Ideal.log (clampP m))

/-- One position's term of KL(p ‖ m), from the raw entries `a`, `b` and the two row denominators. -/
def termP (P Q a b : EReal) : EReal :=
  klTerm (Ideal.div (clampIn a) P) (mix (Ideal.div (clampIn a) P) (Ideal.div (clampIn b) Q))

/-- One position's term of KL(q ‖ m). -/
def termQ (P Q a b : EReal) : EReal :=
  klTerm (Ideal.div (clampIn b) Q) (mix (Ideal.div (clampIn a) P) (Ideal.div (clampIn b) Q))

/-- A row's divergence clamped to `[0, 1000]`. -/
def clampKL (x : EReal) : EReal :=
  min (Ideal.ofBits .f32 0x447A0000#32) (max (Ideal.ofBits .f32 0x00000000#32) x)

section Row

variable {ι : Type} (s : Finset ι) (u v : ι → EReal)

/-- The row's denominator: the clamped entries summed over the positions `s`, kept above `ε`. -/
def rowDenOn : EReal := den (∑ i ∈ s, clampIn (u i))

/-- KL(p ‖ m) of the row. -/
def rowKLpOn : EReal := ∑ i ∈ s, termP (rowDenOn s u) (rowDenOn s v) (u i) (v i)

/-- KL(q ‖ m) of the row. -/
def rowKLqOn : EReal := ∑ i ∈ s, termQ (rowDenOn s u) (rowDenOn s v) (u i) (v i)

/-- The row's Jensen–Shannon value. -/
def rowJSOn : EReal :=
  Ideal.ofBits .f32 0x3F000000#32 * (clampKL (rowKLpOn s u v) + clampKL (rowKLqOn s u v))

end Row

/-- Re-indexing the positions of a row along a bijection changes none of its three sums. -/
theorem rowDenOn_reindex {ι κ : Type} (s : Finset ι) (t : Finset κ) (e : κ → ι) (he : Set.BijOn e t s) (u : ι → EReal) :
    rowDenOn t (u ∘ e) = rowDenOn s u := by
  unfold rowDenOn
  exact congrArg den (Finset.sum_nbij e he.mapsTo he.injOn he.surjOn fun _ _ => rfl)

theorem rowJSOn_reindex {ι κ : Type} (s : Finset ι) (t : Finset κ) (e : κ → ι) (he : Set.BijOn e t s) (u v : ι → EReal) :
    rowJSOn t (u ∘ e) (v ∘ e) = rowJSOn s u v := by
  unfold rowJSOn rowKLpOn rowKLqOn
  rw [rowDenOn_reindex s t e he u, rowDenOn_reindex s t e he v]
  rw [Finset.sum_nbij e he.mapsTo he.injOn he.surjOn
      (f := fun i => termP (rowDenOn s u) (rowDenOn s v) ((u ∘ e) i) ((v ∘ e) i))
      (g := fun i => termP (rowDenOn s u) (rowDenOn s v) (u i) (v i)) fun _ _ => rfl,
    Finset.sum_nbij e he.mapsTo he.injOn he.surjOn
      (f := fun i => termQ (rowDenOn s u) (rowDenOn s v) ((u ∘ e) i) ((v ∘ e) i))
      (g := fun i => termQ (rowDenOn s u) (rowDenOn s v) (u i) (v i)) fun _ _ => rfl]

open Classical in
/-- The positions of row `(b, c)` in a `[2, 8, 128, 128, 128]` array. -/
def rowSet (b : Fin 2) (c : Fin 8) : Finset (⟨5, ![2, 8, 128, 128, 128]⟩ : Shape).Idx :=
  Finset.univ.filter fun i => i 0 = b ∧ i 1 = c

open Classical in
theorem mem_rowSet {b : Fin 2} {c : Fin 8} {i : (⟨5, ![2, 8, 128, 128, 128]⟩ : Shape).Idx} :
    i ∈ rowSet b c ↔ i 0 = b ∧ i 1 = c := by
  unfold rowSet; rw [Finset.mem_filter]; exact ⟨fun h => h.2, fun h => ⟨Finset.mem_univ _, h⟩⟩

/-- THE RESULT both programs compute from the two argument arrays: the mean over the sixteen rows of the row values. -/
def result (X0 X1 : (⟨5, ![2, 8, 128, 128, 128]⟩ : Shape).Idx → EReal) : EReal :=
  Ideal.div (∑ b : Fin 2, ∑ c : Fin 8, rowJSOn (rowSet b c) X0 X1) (Ideal.ofBits .f32 0x41800000#32)

/-- A chain that starts at zero and adds `g k` at step `k` is, after `n` steps, the sum of the first `n` terms. -/
theorem chain_eq_sum {β : Type} [AddCommMonoid β] (N : ℕ) (st : ℕ → β) (g : ℕ → β) (h0 : st 0 = 0)
    (hs : ∀ k, k < N → st (k + 1) = st k + g k) : ∀ n, n ≤ N → st n = ∑ k ∈ Finset.range n, g k
  | 0, _ => by rw [h0, Finset.range_zero, Finset.sum_empty]
  | n + 1, hn => by
    rw [hs n (by omega), chain_eq_sum N st g h0 hs n (by omega), Finset.sum_range_succ]

end Cert.RowMath

end
-- ==== Proof.LibRowSum.lean ====
/-
  Indices named by their coordinates, and a sum along the second axis of a matrix read at a row.

  An index of a rank-1 or rank-2 shape is determined by its coordinates' values, whatever term spells it (a composed
  index map of a broadcast, a lifted index of a reduction, a block's embedded index).  A lane reduction
  `multi_reduction <add>` of an [a, K] array along its second axis, from the zero word, read at row r over the
  extended reals, is the sum over k of the entries (r, k).
-/
import Idealize.ShloMosaic.PureOps.Ideal.Laws
import Idealize.ShloMosaic.Lib.ValueIdx

namespace Idealize.ShloMosaic.ValueIdx

open Idealize.ShloMosaic

/-- An index of a rank-2 shape is the one with the same two coordinates. -/
theorem idx2_ext {n0 n1 : Nat} (j : (⟨2, ![n0, n1]⟩ : Shape).Idx) (a : Fin n0) (b : Fin n1)
    (h0 : (j 0).val = a.val) (h1 : (j 1).val = b.val) : j = ix2 a b :=
  funext fun d => Fin.ext (by match d with | ⟨0, _⟩ => exact h0 | ⟨1, _⟩ => exact h1)

/-- An index of a rank-1 shape is the one with the same coordinate. -/
theorem idx1_ext {n : Nat} (j : (⟨1, ![n]⟩ : Shape).Idx) (a : Fin n) (h0 : (j 0).val = a.val) : j = ix1 a :=
  funext fun d => Fin.ext (by match d with | ⟨0, _⟩ => exact h0)

/-- A sum along the second axis of an [a, K] array, from the zero word, read at row `r`: `∑ k, src (r, k)`. The shape
    fact, the format fact and the accumulator's neutrality are whatever proofs the printed operation carries. -/
theorem multiReduction_add_rows_apply {a K : ℕ} (src : FVec Ideal ⟨2, ![a, K]⟩ .f32)
    (hr : (⟨2, ![a, K]⟩ : Shape).Reduces [1] ⟨1, ![a]⟩) (hφ : FKind.Formats .f32)
    (hacc : (0x00000000#32 : BitVec 32) = FKind.add.neutral .f32 hφ) (r : Fin a) :
    multiReduction .add [1] ⟨1, ![a]⟩ src 0x00000000#32 hr hφ hacc (ix1 r) = ∑ k : Fin K, src (ix2 r k) :=
  (Ideal.multiReduction_add_single src _ hr hφ hacc (ix1 r)).trans
    (Finset.sum_congr rfl fun k _ => congrArg src (idx2_ext _ r k rfl rfl))

end Idealize.ShloMosaic.ValueIdx
-- ==== Proof.LibColSum.lean ====
/-
  A sum along the FIRST axis of a matrix read at a column.

  A sublane reduction `multi_reduction <add>` of a [K, b] array along its first axis, from the zero word, read at
  column j over the extended reals, is the sum over k of the entries (k, j).
-/
import proofs.«153294_j42812234006951_2_alg».proof.Proof.LibRowSum

namespace Idealize.ShloMosaic.ValueIdx

open Idealize.ShloMosaic

/-- A sum along the first axis of a [K, b] array, from the zero word, read at column `j`: `∑ k, src (k, j)`. The shape
    fact, the format fact and the accumulator's neutrality are whatever proofs the printed operation carries. -/
theorem multiReduction_add_cols_apply {K b : ℕ} (src : FVec Ideal ⟨2, ![K, b]⟩ .f32)
    (hr : (⟨2, ![K, b]⟩ : Shape).Reduces [0] ⟨1, ![b]⟩) (hφ : FKind.Formats .f32)
    (hacc : (0x00000000#32 : BitVec 32) = FKind.add.neutral .f32 hφ) (j : Fin b) :
    multiReduction .add [0] ⟨1, ![b]⟩ src 0x00000000#32 hr hφ hacc (ix1 j) = ∑ k : Fin K, src (ix2 k j) :=
  (Ideal.multiReduction_add_single src _ hr hφ hacc (ix1 j)).trans
    (Finset.sum_congr rfl fun k _ => congrArg src (idx2_ext _ k j rfl rfl))

end Idealize.ShloMosaic.ValueIdx
-- ==== Proof.KernelPay.lean ====
/-
  The kernel body's arithmetic read at an index, on the extended reals.

  One trip of the first loop adds to each lane j the eight clamped entries of the trip's sublanes; the row total is the
  lane sum of that accumulator, kept above ε.  One trip of the second loop adds to each lane the eight Kullback–Leibler
  terms of its sublanes, formed from the clamped entries divided by the two row totals; the stored value is the lane
  sum of that accumulator.
-/
import proofs.«153294_j42812234006951_2_alg».proof.Proof.Gen.KernelIdeal.Skeleton
import proofs.«153294_j42812234006951_2_alg».proof.Proof.RowMath
import proofs.«153294_j42812234006951_2_alg».proof.Proof.LibColSum
import Idealize.ShloMosaic.Lib.ValueLayout
import Idealize.ShloMosaic.Lib.Pipeline.Value
import Idealize.ShloMosaic.PureOps.Ideal.Laws

noncomputable section

namespace Cert.KernelValue

open Idealize.ShloMosaic Idealize.ShloMosaic.ValueIdx Cert.KernelIdeal Cert.KernelIdeal.Gen Cert.RowMath
open scoped BigOperators

/-- The zero accumulators the two loops start from. -/
theorem pay1_apply (i : S1x16384.Idx) : k0_pay1 (F := Ideal) i = 0 := Ideal.ofBits_zero_f32
theorem pay2_apply (i : S1x16384.Idx) : k0_pay2 (F := Ideal) i = 0 := Ideal.ofBits_zero_f32
theorem pay7_apply (i : S1x16384.Idx) : k0_pay7 (F := Ideal) i = 0 := Ideal.ofBits_zero_f32
theorem pay8_apply (i : S1x16384.Idx) : k0_pay8 (F := Ideal) i = 0 := Ideal.ofBits_zero_f32

/-- A loaded [1, 8, 16384] slab, its unit axis dropped and clamped, at sublane s and lane j. -/
theorem clamp_slab_apply (v : Vec Ideal S1x8x16384 .f32) (h : S1x8x16384.ShapeCasts S8x16384) (s : Fin 8) (j : Fin 16384) :
    minimumf (broadcast S8x16384 (Scalar.ofBits (F := Ideal) .f32 0x49742400#32))
      (maximumf (broadcast S8x16384 (Scalar.ofBits (F := Ideal) .f32 0x358637BD#32)) (shapeCast S8x16384 v h)) (ix2 s j)
      = clampIn (v (ix3 (0 : Fin 1) s j)) := by
  show min _ (max _ (shapeCast S8x16384 v h (ix2 s j))) = _
  rw [shapeCast_1ab_ab_apply]
  rfl

/-- One trip of the first loop, heat-map side: each lane gains its eight clamped entries. -/
theorem pay3_apply (acc : FVec Ideal S1x16384 .f32) (v27 : Vec Ideal S1x8x16384 .f32) (j : Fin 16384) :
    k0_pay3 (F := Ideal) acc v27 (ix2 (0 : Fin 1) j)
      = acc (ix2 (0 : Fin 1) j) + ∑ s : Fin 8, clampIn (v27 (ix3 (0 : Fin 1) s j)) := by
  unfold k0_pay3
  refine congrArg (acc (ix2 (0 : Fin 1) j) + ·) ?_
  refine (shapeCast_a_1a_apply _ _ (0 : Fin 1) j).trans ?_
  refine (multiReduction_add_cols_apply _ _ _ _ j).trans ?_
  exact Finset.sum_congr rfl fun s _ => clamp_slab_apply v27 _ s j

/-- One trip of the first loop, ground-truth side. -/
theorem pay4_apply (acc : FVec Ideal S1x16384 .f32) (v34 : Vec Ideal S1x8x16384 .f32) (j : Fin 16384) :
    k0_pay4 (F := Ideal) acc v34 (ix2 (0 : Fin 1) j)
      = acc (ix2 (0 : Fin 1) j) + ∑ s : Fin 8, clampIn (v34 (ix3 (0 : Fin 1) s j)) := by
  unfold k0_pay4
  refine congrArg (acc (ix2 (0 : Fin 1) j) + ·) ?_
  refine (shapeCast_a_1a_apply _ _ (0 : Fin 1) j).trans ?_
  refine (multiReduction_add_cols_apply _ _ _ _ j).trans ?_
  exact Finset.sum_congr rfl fun s _ => clamp_slab_apply v34 _ s j

/-- The lane sum of a [1, 16384] accumulator, as a [1, 1] value. -/
theorem lane_sum_apply (v : FVec Ideal S1x16384 .f32) (hr : S1x16384.Reduces [1] S1) (hφ : FKind.Formats .f32)
    (hacc : (0x00000000#32 : BitVec 32) = FKind.add.neutral .f32 hφ) (hc : S1.ShapeCasts S1x1) :
    shapeCast S1x1 (multiReduction .add [1] S1 v 0x00000000#32 hr hφ hacc) hc (ix2 (0 : Fin 1) (0 : Fin 1))
      = ∑ j : Fin 16384, v (ix2 (0 : Fin 1) j) :=
  (shapeCast_a_1a_apply _ _ (0 : Fin 1) (0 : Fin 1)).trans (multiReduction_add_rows_apply v hr hφ hacc (0 : Fin 1))

/-- The heat-map row total kept above ε. -/
theorem pay5_apply (v3_0 : FVec Ideal S1x16384 .f32) :
    k0_pay5 (F := Ideal) v3_0 (ix2 (0 : Fin 1) (0 : Fin 1)) = den (∑ j : Fin 16384, v3_0 (ix2 (0 : Fin 1) j)) := by
  unfold k0_pay5
  exact congrArg den (lane_sum_apply v3_0 _ _ _ _)

/-- The ground-truth row total kept above ε. -/
theorem pay6_apply (v3_1 : FVec Ideal S1x16384 .f32) :
    k0_pay6 (F := Ideal) v3_1 (ix2 (0 : Fin 1) (0 : Fin 1)) = den (∑ j : Fin 16384, v3_1 (ix2 (0 : Fin 1) j)) := by
  unfold k0_pay6
  exact congrArg den (lane_sum_apply v3_1 _ _ _ _)

/-- A [1, 1] value spread over an [8, 16384] tile reads, anywhere, its one entry. -/
theorem spread_apply (v : FVec Ideal S1x1 .f32) (h : S1x1.Broadcasts S8x16384) (s : Fin 8) (j : Fin 16384) :
    broadcastTo S8x16384 v h (ix2 s j) = v (ix2 (0 : Fin 1) (0 : Fin 1)) :=
  broadcastTo_apply v h _ _ fun a => by match a with | ⟨0, _⟩ => rfl | ⟨1, _⟩ => rfl

/-- The normalised heat-map entry `p`. -/
theorem pay13_apply (v7 : FVec Ideal S1x1 .f32) (v27 : Vec Ideal S1x8x16384 .f32) (s : Fin 8) (j : Fin 16384) :
    k0_pay13 (F := Ideal) v7 v27 (ix2 s j)
      = Ideal.div (clampIn (v27 (ix3 (0 : Fin 1) s j))) (v7 (ix2 (0 : Fin 1) (0 : Fin 1))) := by
  unfold k0_pay13
  show Ideal.div _ (broadcastTo S8x16384 v7 _ (ix2 s j)) = _
  rw [spread_apply]
  exact congrArg (Ideal.div · _) (clamp_slab_apply v27 _ s j)

/-- The normalised ground-truth entry `q`. -/
theorem pay14_apply (v11 : FVec Ideal S1x1 .f32) (v34 : Vec Ideal S1x8x16384 .f32) (s : Fin 8) (j : Fin 16384) :
    k0_pay14 (F := Ideal) v11 v34 (ix2 s j)
      = Ideal.div (clampIn (v34 (ix3 (0 : Fin 1) s j))) (v11 (ix2 (0 : Fin 1) (0 : Fin 1))) := by
  unfold k0_pay14
  show Ideal.div _ (broadcastTo S8x16384 v11 _ (ix2 s j)) = _
  rw [spread_apply]
  exact congrArg (Ideal.div · _) (clamp_slab_apply v34 _ s j)

/-- The logarithm of the clamped mixture. -/
theorem pay15_apply (v7 v11 : FVec Ideal S1x1 .f32) (v27 v34 : Vec Ideal S1x8x16384 .f32) (s : Fin 8) (j : Fin 16384) :
    k0_pay15 (F := Ideal) v7 v11 v27 v34 (ix2 s j)
      = Ideal.log (clampP (mix (k0_pay13 (F := Ideal) v7 v27 (ix2 s j)) (k0_pay14 (F := Ideal) v11 v34 (ix2 s j)))) := rfl

/-- One position's term of KL(p ‖ m). -/
theorem pay16_apply (v7 v11 : FVec Ideal S1x1 .f32) (v27 v34 : Vec Ideal S1x8x16384 .f32) (s : Fin 8) (j : Fin 16384) :
    k0_pay16 (F := Ideal) v7 v11 v27 v34 (ix2 s j)
      = termP (v7 (ix2 (0 : Fin 1) (0 : Fin 1))) (v11 (ix2 (0 : Fin 1) (0 : Fin 1)))
          (v27 (ix3 (0 : Fin 1) s j)) (v34 (ix3 (0 : Fin 1) s j)) := by
  have e : k0_pay16 (F := Ideal) v7 v11 v27 v34 (ix2 s j)
      = klTerm (k0_pay13 (F := Ideal) v7 v27 (ix2 s j))
          (mix (k0_pay13 (F := Ideal) v7 v27 (ix2 s j)) (k0_pay14 (F := Ideal) v11 v34 (ix2 s j))) := rfl
  rw [e, pay13_apply, pay14_apply]
  rfl

/-- One position's term of KL(q ‖ m). -/
theorem pay17_apply (v7 v11 : FVec Ideal S1x1 .f32) (v27 v34 : Vec Ideal S1x8x16384 .f32) (s : Fin 8) (j : Fin 16384) :
    k0_pay17 (F := Ideal) v7 v11 v27 v34 (ix2 s j)
      = termQ (v7 (ix2 (0 : Fin 1) (0 : Fin 1))) (v11 (ix2 (0 : Fin 1) (0 : Fin 1)))
          (v27 (ix3 (0 : Fin 1) s j)) (v34 (ix3 (0 : Fin 1) s j)) := by
  have e : k0_pay17 (F := Ideal) v7 v11 v27 v34 (ix2 s j)
      = klTerm (k0_pay14 (F := Ideal) v11 v34 (ix2 s j))
          (mix (k0_pay13 (F := Ideal) v7 v27 (ix2 s j)) (k0_pay14 (F := Ideal) v11 v34 (ix2 s j))) := rfl
  rw [e, pay13_apply, pay14_apply]
  rfl

/-- One trip of the second loop: each lane gains the eight terms of its sublanes. -/
theorem pay9_apply (acc : FVec Ideal S1x16384 .f32) (v62 : FVec Ideal S8x16384 .f32) (j : Fin 16384) :
    k0_pay9 (F := Ideal) acc v62 (ix2 (0 : Fin 1) j) = acc (ix2 (0 : Fin 1) j) + ∑ s : Fin 8, v62 (ix2 s j) := by
  unfold k0_pay9
  refine congrArg (acc (ix2 (0 : Fin 1) j) + ·) ?_
  refine (shapeCast_a_1a_apply _ _ (0 : Fin 1) j).trans ?_
  exact multiReduction_add_cols_apply _ _ _ _ j

theorem pay10_apply (acc : FVec Ideal S1x16384 .f32) (v65 : FVec Ideal S8x16384 .f32) (j : Fin 16384) :
    k0_pay10 (F := Ideal) acc v65 (ix2 (0 : Fin 1) j) = acc (ix2 (0 : Fin 1) j) + ∑ s : Fin 8, v65 (ix2 s j) := by
  unfold k0_pay10
  refine congrArg (acc (ix2 (0 : Fin 1) j) + ·) ?_
  refine (shapeCast_a_1a_apply _ _ (0 : Fin 1) j).trans ?_
  exact multiReduction_add_cols_apply _ _ _ _ j

/-- The stored value: the lane sum of the second loop's accumulator, as a [1, 1, 1] block. -/
theorem pay11_apply (v15_0 : FVec Ideal S1x16384 .f32) :
    k0_pay11 (F := Ideal) v15_0 (ix3 (0 : Fin 1) (0 : Fin 1) (0 : Fin 1)) = ∑ j : Fin 16384, v15_0 (ix2 (0 : Fin 1) j) := by
  unfold k0_pay11
  refine (shapeCast_ab_1ab_apply _ _ (0 : Fin 1) (0 : Fin 1) (0 : Fin 1)).trans ?_
  exact lane_sum_apply v15_0 _ _ _ _

theorem pay12_apply (v15_1 : FVec Ideal S1x16384 .f32) :
    k0_pay12 (F := Ideal) v15_1 (ix3 (0 : Fin 1) (0 : Fin 1) (0 : Fin 1)) = ∑ j : Fin 16384, v15_1 (ix2 (0 : Fin 1) j) := by
  unfold k0_pay12
  refine (shapeCast_ab_1ab_apply _ _ (0 : Fin 1) (0 : Fin 1) (0 : Fin 1)).trans ?_
  exact lane_sum_apply v15_1 _ _ _ _

end Cert.KernelValue

end
-- ==== Proof.KernelLoops.lean ====
/-
  The kernel's two counted loops in closed form, on the extended reals.

  A grid point holds one row: a [1, 128, 16384] block of each input.  Trip k of either loop loads sublanes 8k … 8k+7 of
  both blocks.  The first loop's accumulators are zero before trip 0 and gain, per lane, the eight clamped entries of the
  trip, so after sixteen trips lane j holds the sum over all 128 sublanes; the lane sum of that, kept above ε, is the
  row's denominator.  The second loop does the same with the Kullback–Leibler terms.  Summed over lanes, trips and
  sublanes the stored values are the row's two divergences over the positions (lane, trip, sublane).
-/
import proofs.«153294_j42812234006951_2_alg».proof.Proof.Gen.KernelIdeal.Frame
import proofs.«153294_j42812234006951_2_alg».proof.Proof.KernelPay
import Idealize.ShloMosaic.Lib.WholeRead

noncomputable section

namespace Cert.KernelValue

open Idealize.ShloMosaic Idealize.ShloMosaic.ValueIdx Idealize.ShloMosaic.TcCoe Idealize.SL.Sem
open Cert.KernelIdeal Cert.KernelIdeal.Gen Cert.RowMath
open scoped BigOperators

/-- Both loops make sixteen trips. -/
theorem trips1 : k0_t1_loop.trips = 16 := by decide
theorem trips2 : k0_t2_loop.trips = 16 := by decide

/-- A block's entry at sublane `d` (a natural number) and lane `j`; zero past the block's 128 sublanes. -/
def rowNat (x : Vec Ideal S1x128x16384 .f32) (d : ℕ) (j : Fin 16384) : EReal :=
  if h : d < 128 then x (ix3 (0 : Fin 1) ⟨d, h⟩ j) else 0

/-- The positions of a block as the kernel visits them: lane, trip, sublane within the trip. -/
abbrev Pos : Type := Fin 16384 × Fin 16 × Fin 8

/-- The block's entry at a position. -/
def blkRow (x : Vec Ideal S1x128x16384 .f32) (q : Pos) : EReal := rowNat x (8 * q.2.1.val + q.2.2.val) q.1

/-- A sum over lanes of a sum over the first sixteen trips of a sum over sublanes is the sum over positions. -/
theorem sum_lanes_trips (G : Fin 16384 → ℕ → Fin 8 → EReal) :
    ∑ j : Fin 16384, ∑ k ∈ Finset.range 16, ∑ s : Fin 8, G j k s = ∑ q : Pos, G q.1 q.2.1.val q.2.2 := by
  simp only [Fintype.sum_prod_type, Finset.sum_range]

/-- What trip `k` of the first loop loads through a whole staging buffer holding the block `x`: sublanes 8k … 8k+7. -/
theorem load1_apply (x : Vec Ideal S1x128x16384 .f32) (a : Memref sig .tc .vmem S1x128x16384 .f32) (ha : a.IsWhole)
    (k : Fin k0_t1_loop.trips) (s : Fin 8) (j : Fin 16384) :
    View.readAt (Elt Ideal) a.view (Rect.unit (s := S1x128x16384) (k0_off1 k) S1x8x16384.size (k0_off1_inb k)).toLoadRect
        (ha.unread x) (ix3 (0 : Fin 1) s j) = rowNat x (8 * k.val + s.val) j := by
  have hk : k.val < 16 := Nat.lt_of_lt_of_le k.isLt trips1.le
  refine (ha.readAt_unread x _ _).trans ?_
  unfold rowNat
  rw [dif_pos (by omega)]
  refine congrArg x (funext fun d => Fin.ext ?_)
  match d with
  | ⟨0, _⟩ => show k0_off1 k 0 + 1 * 0 = 0; rw [k0_off1_eq k]; rfl
  | ⟨1, _⟩ => show k0_off1 k 1 + 1 * s.val = 8 * k.val + s.val; rw [k0_off1_eq k]; show 8 * k.val + 1 * s.val = _; omega
  | ⟨2, _⟩ => show k0_off1 k 2 + 1 * j.val = j.val; rw [k0_off1_eq k]; show 0 + 1 * j.val = _; omega

/-- The same for the second loop. -/
theorem load2_apply (x : Vec Ideal S1x128x16384 .f32) (a : Memref sig .tc .vmem S1x128x16384 .f32) (ha : a.IsWhole)
    (k : Fin k0_t2_loop.trips) (s : Fin 8) (j : Fin 16384) :
    View.readAt (Elt Ideal) a.view (Rect.unit (s := S1x128x16384) (k0_off2 k) S1x8x16384.size (k0_off2_inb k)).toLoadRect
        (ha.unread x) (ix3 (0 : Fin 1) s j) = rowNat x (8 * k.val + s.val) j := by
  have hk : k.val < 16 := Nat.lt_of_lt_of_le k.isLt trips2.le
  refine (ha.readAt_unread x _ _).trans ?_
  unfold rowNat
  rw [dif_pos (by omega)]
  refine congrArg x (funext fun d => Fin.ext ?_)
  match d with
  | ⟨0, _⟩ => show k0_off2 k 0 + 1 * 0 = 0; rw [k0_off2_eq k]; rfl
  | ⟨1, _⟩ => show k0_off2 k 1 + 1 * s.val = 8 * k.val + s.val; rw [k0_off2_eq k]; show 8 * k.val + 1 * s.val = _; omega
  | ⟨2, _⟩ => show k0_off2 k 2 + 1 * j.val = j.val; rw [k0_off2_eq k]; show 0 + 1 * j.val = _; omega

section Body

variable (c : Dev nD) (i : grid0.Coords)
  (arg1 : Memref sig .tc .vmem S1x128x16384 .f32) (harg1 : arg1.IsWhole)
  (arg2 : Memref sig .tc .vmem S1x128x16384 .f32) (harg2 : arg2.IsWhole)
  (arg3 : Memref sig .tc .vmem S1x1x1 .f32) (harg3 : arg3.IsWhole)
  (arg4 : Memref sig .tc .vmem S1x1x1 .f32) (harg4 : arg4.IsWhole)
  (x0 x1 : Vec Ideal S1x128x16384 .f32)

/-- One trip of the first loop as a function of the carried pair: each accumulator gains the trip's sublane sums of the
    clamped entries it loads. -/
theorem tripR1_eq (k : Fin k0_t1_loop.trips) (acc : FVec Ideal S1x16384 .f32 × FVec Ideal S1x16384 .f32) :
    tripR_k0_t1 (F := Ideal) Variants.none c none i arg1 harg1 arg2 harg2 arg3 harg3 arg4 harg4 (harg1.unread x0) (harg2.unread x1) k acc
      = (k0_pay3 acc.1 (View.readAt (Elt Ideal) arg1.view
            (Rect.unit (s := S1x128x16384) (k0_off1 k) S1x8x16384.size (k0_off1_inb k)).toLoadRect (harg1.unread x0)),
         k0_pay4 acc.2 (View.readAt (Elt Ideal) arg2.view
            (Rect.unit (s := S1x128x16384) (k0_off1 k) S1x8x16384.size (k0_off1_inb k)).toLoadRect (harg2.unread x1))) := by
  unfold tripR_k0_t1 trip_k0_t1
  rfl

/-- One trip of the second loop as a function of the carried pair, given the first loop's results `v3_0`, `v3_1`: each
    accumulator gains the trip's sublane sums of the divergence terms. -/
theorem tripR2_eq (v3_0 v3_1 : FVec Ideal S1x16384 .f32) (k : Fin k0_t2_loop.trips)
    (acc : FVec Ideal S1x16384 .f32 × FVec Ideal S1x16384 .f32) :
    tripR_k0_t2 (F := Ideal) Variants.none c none i arg1 harg1 arg2 harg2 arg3 harg3 arg4 harg4 v3_0 v3_1 (harg1.unread x0) (harg2.unread x1) k acc
      = (k0_pay9 acc.1 (k0_pay16 (k0_pay5 v3_0) (k0_pay6 v3_1)
            (View.readAt (Elt Ideal) arg1.view
              (Rect.unit (s := S1x128x16384) (k0_off2 k) S1x8x16384.size (k0_off2_inb k)).toLoadRect (harg1.unread x0))
            (View.readAt (Elt Ideal) arg2.view
              (Rect.unit (s := S1x128x16384) (k0_off2 k) S1x8x16384.size (k0_off2_inb k)).toLoadRect (harg2.unread x1))),
         k0_pay10 acc.2 (k0_pay17 (k0_pay5 v3_0) (k0_pay6 v3_1)
            (View.readAt (Elt Ideal) arg1.view
              (Rect.unit (s := S1x128x16384) (k0_off2 k) S1x8x16384.size (k0_off2_inb k)).toLoadRect (harg1.unread x0))
            (View.readAt (Elt Ideal) arg2.view
              (Rect.unit (s := S1x128x16384) (k0_off2 k) S1x8x16384.size (k0_off2_inb k)).toLoadRect (harg2.unread x1)))) := by
  unfold tripR_k0_t2 trip_k0_t2
  rfl

/-- The first loop's carried pair before trip `n`. -/
abbrev st1 (n : ℕ) : FVec Ideal S1x16384 .f32 × FVec Ideal S1x16384 .f32 :=
  st_k0_t1 (F := Ideal) Variants.none c none i arg1 harg1 arg2 harg2 arg3 harg3 arg4 harg4 (harg1.unread x0) (harg2.unread x1)
    (k0_pay1, k0_pay2) n

/-- Before trip `n` lane `j` of the heat-map accumulator holds the clamped entries of sublanes 0 … 8n−1. -/
theorem st1_fst (n : ℕ) (hn : n ≤ 16) (j : Fin 16384) :
    (st1 c i arg1 harg1 arg2 harg2 arg3 harg3 arg4 harg4 x0 x1 n).1 (ix2 (0 : Fin 1) j)
      = ∑ k ∈ Finset.range n, ∑ s : Fin 8, clampIn (rowNat x0 (8 * k + s.val) j) := by
  refine chain_eq_sum 16 (fun n => (st1 c i arg1 harg1 arg2 harg2 arg3 harg3 arg4 harg4 x0 x1 n).1 (ix2 (0 : Fin 1) j))
    (fun k => ∑ s : Fin 8, clampIn (rowNat x0 (8 * k + s.val) j))
    (show k0_pay1 (F := Ideal) (ix2 (0 : Fin 1) j) = 0 from pay1_apply _) (fun k hk => ?_) n hn
  have hk' : k < k0_t1_loop.trips := trips1 ▸ hk
  have e := st_k0_t1_succ (F := Ideal) Variants.none c none i arg1 harg1 arg2 harg2 arg3 harg3 arg4 harg4
    (harg1.unread x0) (harg2.unread x1) (k0_pay1, k0_pay2) ⟨k, hk'⟩
  show (st1 c i arg1 harg1 arg2 harg2 arg3 harg3 arg4 harg4 x0 x1 (k + 1)).1 (ix2 (0 : Fin 1) j) = _
  rw [show st1 c i arg1 harg1 arg2 harg2 arg3 harg3 arg4 harg4 x0 x1 (k + 1) = _ from e, tripR1_eq]
  refine (pay3_apply _ _ j).trans ?_
  exact congrArg (_ + ·) (Finset.sum_congr rfl fun s _ => congrArg clampIn (load1_apply x0 arg1 harg1 ⟨k, hk'⟩ s j))

/-- The same for the ground-truth accumulator. -/
theorem st1_snd (n : ℕ) (hn : n ≤ 16) (j : Fin 16384) :
    (st1 c i arg1 harg1 arg2 harg2 arg3 harg3 arg4 harg4 x0 x1 n).2 (ix2 (0 : Fin 1) j)
      = ∑ k ∈ Finset.range n, ∑ s : Fin 8, clampIn (rowNat x1 (8 * k + s.val) j) := by
  refine chain_eq_sum 16 (fun n => (st1 c i arg1 harg1 arg2 harg2 arg3 harg3 arg4 harg4 x0 x1 n).2 (ix2 (0 : Fin 1) j))
    (fun k => ∑ s : Fin 8, clampIn (rowNat x1 (8 * k + s.val) j))
    (show k0_pay2 (F := Ideal) (ix2 (0 : Fin 1) j) = 0 from pay2_apply _) (fun k hk => ?_) n hn
  have hk' : k < k0_t1_loop.trips := trips1 ▸ hk
  have e := st_k0_t1_succ (F := Ideal) Variants.none c none i arg1 harg1 arg2 harg2 arg3 harg3 arg4 harg4
    (harg1.unread x0) (harg2.unread x1) (k0_pay1, k0_pay2) ⟨k, hk'⟩
  show (st1 c i arg1 harg1 arg2 harg2 arg3 harg3 arg4 harg4 x0 x1 (k + 1)).2 (ix2 (0 : Fin 1) j) = _
  rw [show st1 c i arg1 harg1 arg2 harg2 arg3 harg3 arg4 harg4 x0 x1 (k + 1) = _ from e, tripR1_eq]
  refine (pay4_apply _ _ j).trans ?_
  exact congrArg (_ + ·) (Finset.sum_congr rfl fun s _ => congrArg clampIn (load1_apply x1 arg2 harg2 ⟨k, hk'⟩ s j))

/-- The row's heat-map denominator, as the kernel forms it, is the denominator over the block's positions. -/
theorem den0_eq :
    k0_pay5 (F := Ideal) (st1 c i arg1 harg1 arg2 harg2 arg3 harg3 arg4 harg4 x0 x1 16).1 (ix2 (0 : Fin 1) (0 : Fin 1)) = rowDenOn Finset.univ (blkRow x0) := by
  rw [pay5_apply]
  unfold rowDenOn
  refine congrArg den ?_
  rw [Finset.sum_congr rfl fun j _ => st1_fst c i arg1 harg1 arg2 harg2 arg3 harg3 arg4 harg4 x0 x1 16 le_rfl j]
  exact sum_lanes_trips fun j k s => clampIn (rowNat x0 (8 * k + s.val) j)

/-- The row's ground-truth denominator. -/
theorem den1_eq :
    k0_pay6 (F := Ideal) (st1 c i arg1 harg1 arg2 harg2 arg3 harg3 arg4 harg4 x0 x1 16).2 (ix2 (0 : Fin 1) (0 : Fin 1)) = rowDenOn Finset.univ (blkRow x1) := by
  rw [pay6_apply]
  unfold rowDenOn
  refine congrArg den ?_
  rw [Finset.sum_congr rfl fun j _ => st1_snd c i arg1 harg1 arg2 harg2 arg3 harg3 arg4 harg4 x0 x1 16 le_rfl j]
  exact sum_lanes_trips fun j k s => clampIn (rowNat x1 (8 * k + s.val) j)

/-- The second loop's carried pair before trip `n`, given the first loop's results. -/
abbrev st2 (v3_0 v3_1 : FVec Ideal S1x16384 .f32) (n : ℕ) : FVec Ideal S1x16384 .f32 × FVec Ideal S1x16384 .f32 :=
  st_k0_t2 (F := Ideal) Variants.none c none i arg1 harg1 arg2 harg2 arg3 harg3 arg4 harg4 v3_0 v3_1 (harg1.unread x0) (harg2.unread x1)
    (k0_pay7, k0_pay8) n

/-- Before trip `n` lane `j` of the first accumulator holds the KL(p ‖ m) terms of sublanes 0 … 8n−1, formed with the
    denominators `P`, `Q` the first loop left. -/
theorem st2_fst (v3_0 v3_1 : FVec Ideal S1x16384 .f32) (n : ℕ) (hn : n ≤ 16) (j : Fin 16384) :
    (st2 c i arg1 harg1 arg2 harg2 arg3 harg3 arg4 harg4 x0 x1 v3_0 v3_1 n).1 (ix2 (0 : Fin 1) j)
      = ∑ k ∈ Finset.range n, ∑ s : Fin 8,
          termP (k0_pay5 (F := Ideal) v3_0 (ix2 (0 : Fin 1) (0 : Fin 1))) (k0_pay6 (F := Ideal) v3_1 (ix2 (0 : Fin 1) (0 : Fin 1)))
            (rowNat x0 (8 * k + s.val) j) (rowNat x1 (8 * k + s.val) j) := by
  refine chain_eq_sum 16 (fun n => (st2 c i arg1 harg1 arg2 harg2 arg3 harg3 arg4 harg4 x0 x1 v3_0 v3_1 n).1 (ix2 (0 : Fin 1) j))
    (fun k => ∑ s : Fin 8,
      termP (k0_pay5 (F := Ideal) v3_0 (ix2 (0 : Fin 1) (0 : Fin 1))) (k0_pay6 (F := Ideal) v3_1 (ix2 (0 : Fin 1) (0 : Fin 1)))
        (rowNat x0 (8 * k + s.val) j) (rowNat x1 (8 * k + s.val) j))
    (show k0_pay7 (F := Ideal) (ix2 (0 : Fin 1) j) = 0 from pay7_apply _) (fun k hk => ?_) n hn
  have hk' : k < k0_t2_loop.trips := trips2 ▸ hk
  have e := st_k0_t2_succ (F := Ideal) Variants.none c none i arg1 harg1 arg2 harg2 arg3 harg3 arg4 harg4 v3_0 v3_1
    (harg1.unread x0) (harg2.unread x1) (k0_pay7, k0_pay8) ⟨k, hk'⟩
  show (st2 c i arg1 harg1 arg2 harg2 arg3 harg3 arg4 harg4 x0 x1 v3_0 v3_1 (k + 1)).1 (ix2 (0 : Fin 1) j) = _
  rw [show st2 c i arg1 harg1 arg2 harg2 arg3 harg3 arg4 harg4 x0 x1 v3_0 v3_1 (k + 1) = _ from e, tripR2_eq]
  refine (pay9_apply _ _ j).trans ?_
  refine congrArg (_ + ·) (Finset.sum_congr rfl fun s _ => ?_)
  rw [pay16_apply, load2_apply x0 arg1 harg1 ⟨k, hk'⟩ s j, load2_apply x1 arg2 harg2 ⟨k, hk'⟩ s j]

/-- The same for the KL(q ‖ m) accumulator. -/
theorem st2_snd (v3_0 v3_1 : FVec Ideal S1x16384 .f32) (n : ℕ) (hn : n ≤ 16) (j : Fin 16384) :
    (st2 c i arg1 harg1 arg2 harg2 arg3 harg3 arg4 harg4 x0 x1 v3_0 v3_1 n).2 (ix2 (0 : Fin 1) j)
      = ∑ k ∈ Finset.range n, ∑ s : Fin 8,
          termQ (k0_pay5 (F := Ideal) v3_0 (ix2 (0 : Fin 1) (0 : Fin 1))) (k0_pay6 (F := Ideal) v3_1 (ix2 (0 : Fin 1) (0 : Fin 1)))
            (rowNat x0 (8 * k + s.val) j) (rowNat x1 (8 * k + s.val) j) := by
  refine chain_eq_sum 16 (fun n => (st2 c i arg1 harg1 arg2 harg2 arg3 harg3 arg4 harg4 x0 x1 v3_0 v3_1 n).2 (ix2 (0 : Fin 1) j))
    (fun k => ∑ s : Fin 8,
      termQ (k0_pay5 (F := Ideal) v3_0 (ix2 (0 : Fin 1) (0 : Fin 1))) (k0_pay6 (F := Ideal) v3_1 (ix2 (0 : Fin 1) (0 : Fin 1)))
        (rowNat x0 (8 * k + s.val) j) (rowNat x1 (8 * k + s.val) j))
    (show k0_pay8 (F := Ideal) (ix2 (0 : Fin 1) j) = 0 from pay8_apply _) (fun k hk => ?_) n hn
  have hk' : k < k0_t2_loop.trips := trips2 ▸ hk
  have e := st_k0_t2_succ (F := Ideal) Variants.none c none i arg1 harg1 arg2 harg2 arg3 harg3 arg4 harg4 v3_0 v3_1
    (harg1.unread x0) (harg2.unread x1) (k0_pay7, k0_pay8) ⟨k, hk'⟩
  show (st2 c i arg1 harg1 arg2 harg2 arg3 harg3 arg4 harg4 x0 x1 v3_0 v3_1 (k + 1)).2 (ix2 (0 : Fin 1) j) = _
  rw [show st2 c i arg1 harg1 arg2 harg2 arg3 harg3 arg4 harg4 x0 x1 v3_0 v3_1 (k + 1) = _ from e, tripR2_eq]
  refine (pay10_apply _ _ j).trans ?_
  refine congrArg (_ + ·) (Finset.sum_congr rfl fun s _ => ?_)
  rw [pay17_apply, load2_apply x0 arg1 harg1 ⟨k, hk'⟩ s j, load2_apply x1 arg2 harg2 ⟨k, hk'⟩ s j]

/-- What the body stores in its first output block: KL(p ‖ m) of the row, over the block's positions. -/
theorem stored_p :
    k0_pay11 (F := Ideal) (st2 c i arg1 harg1 arg2 harg2 arg3 harg3 arg4 harg4 x0 x1 (st1 c i arg1 harg1 arg2 harg2 arg3 harg3 arg4 harg4 x0 x1 16).1 (st1 c i arg1 harg1 arg2 harg2 arg3 harg3 arg4 harg4 x0 x1 16).2 16).1
        (ix3 (0 : Fin 1) (0 : Fin 1) (0 : Fin 1))
      = rowKLpOn Finset.univ (blkRow x0) (blkRow x1) := by
  rw [pay11_apply]
  unfold rowKLpOn
  rw [Finset.sum_congr rfl fun j _ => st2_fst c i arg1 harg1 arg2 harg2 arg3 harg3 arg4 harg4 x0 x1 _ _ 16 le_rfl j, den0_eq, den1_eq]
  exact sum_lanes_trips fun j k s =>
    termP (rowDenOn Finset.univ (blkRow x0)) (rowDenOn Finset.univ (blkRow x1)) (rowNat x0 (8 * k + s.val) j) (rowNat x1 (8 * k + s.val) j)

/-- What the body stores in its second output block: KL(q ‖ m) of the row. -/
theorem stored_q :
    k0_pay12 (F := Ideal) (st2 c i arg1 harg1 arg2 harg2 arg3 harg3 arg4 harg4 x0 x1 (st1 c i arg1 harg1 arg2 harg2 arg3 harg3 arg4 harg4 x0 x1 16).1 (st1 c i arg1 harg1 arg2 harg2 arg3 harg3 arg4 harg4 x0 x1 16).2 16).2
        (ix3 (0 : Fin 1) (0 : Fin 1) (0 : Fin 1))
      = rowKLqOn Finset.univ (blkRow x0) (blkRow x1) := by
  rw [pay12_apply]
  unfold rowKLqOn
  rw [Finset.sum_congr rfl fun j _ => st2_snd c i arg1 harg1 arg2 harg2 arg3 harg3 arg4 harg4 x0 x1 _ _ 16 le_rfl j, den0_eq, den1_eq]
  exact sum_lanes_trips fun j k s =>
    termQ (rowDenOn Finset.univ (blkRow x0)) (rowDenOn Finset.univ (blkRow x1)) (rowNat x0 (8 * k + s.val) j) (rowNat x1 (8 * k + s.val) j)

end Body

end Cert.KernelValue

end
-- ==== Proof.KernelArray.lean ====
/-
  From what one grid point stores to the two output arrays.

  Grid point t holds row t of each input (a [1, 128, 16384] block) and writes back a [1, 1, 1] block at (t, 0, 0) of each
  [16, 1, 1] output.  The sixteen blocks tile each output, so after the run entry (t, 0, 0) of the first output is
  KL(p ‖ m) of row t and of the second KL(q ‖ m) of row t, over the block's positions.
-/
import proofs.«153294_j42812234006951_2_alg».proof.Proof.KernelLoops

noncomputable section

namespace Cert.KernelValue

open Idealize.ShloMosaic Idealize.ShloMosaic.ValueIdx Idealize.ShloMosaic.TcCoe Idealize.SL.Sem
open Cert.KernelIdeal Cert.KernelIdeal.Gen Cert.RowMath
open scoped BigOperators

/-- A [1, 1, 1] block has one index. -/
theorem idx111 (y : S1x1x1.Idx) : y = ix3 (0 : Fin 1) (0 : Fin 1) (0 : Fin 1) :=
  funext fun d => Fin.ext (by
    match d with
    | ⟨0, _⟩ => have h : (y 0).val < 1 := (y 0).isLt; show (y 0).val = 0; omega
    | ⟨1, _⟩ => have h : (y 1).val < 1 := (y 1).isLt; show (y 1).val = 0; omega
    | ⟨2, _⟩ => have h : (y 2).val < 1 := (y 2).isLt; show (y 2).val = 0; omega)

theorem hz3 : (![0, 0, 0] : Fin 3 → Nat) = fun _ => 0 := funext fun a => by fin_cases a <;> rfl

theorem trips16 : Scf.trips (0#32) (Scalar.addi 0#32 16#32) 1#32 = 16 := by decide

section Body

variable (c : Dev nD) (i : grid0.Coords)
  (arg1 : Memref sig .tc .vmem S1x128x16384 .f32) (harg1 : arg1.IsWhole)
  (arg2 : Memref sig .tc .vmem S1x128x16384 .f32) (harg2 : arg2.IsWhole)
  (arg3 : Memref sig .tc .vmem S1x1x1 .f32) (harg3 : arg3.IsWhole)
  (arg4 : Memref sig .tc .vmem S1x1x1 .f32) (harg4 : arg4.IsWhole)
  (x0 x1 : Vec Ideal S1x128x16384 .f32)

/-- What the body leaves in its first output block, from the two input blocks. -/
theorem out2_apply (y : S1x1x1.Idx) :
    out0_A_2 (F := Ideal) c i arg1 harg1 arg2 harg2 arg3 harg3 arg4 harg4 x0 x1 y = rowKLpOn Finset.univ (blkRow x0) (blkRow x1) := by
  unfold out0_A_2
  rw [View.read_writes_eq_canon _ _ _ (cover0_A_2 c i arg1 harg1 arg2 harg2 arg3 harg3 arg4 harg4 x0 x1)]
  unfold kernelRun0_A
  dsimp only
  rw [View.canon_unit_zero hz3, idx111 y, trips16]
  exact stored_p c i arg1 harg1 arg2 harg2 arg3 harg3 arg4 harg4 x0 x1

/-- What the body leaves in its second output block. -/
theorem out3_apply (y : S1x1x1.Idx) :
    out0_A_3 (F := Ideal) c i arg1 harg1 arg2 harg2 arg3 harg3 arg4 harg4 x0 x1 y = rowKLqOn Finset.univ (blkRow x0) (blkRow x1) := by
  unfold out0_A_3
  rw [View.read_writes_eq_canon _ _ _ (cover0_A_3 c i arg1 harg1 arg2 harg2 arg3 harg3 arg4 harg4 x0 x1)]
  unfold kernelRun0_A
  dsimp only
  rw [View.canon_unit_zero hz3, idx111 y, trips16]
  exact stored_q c i arg1 harg1 arg2 harg2 arg3 harg3 arg4 harg4 x0 x1

end Body

variable (m : (ℓ : Loc nD τ sig) → Buf (Elt Ideal) ℓ)

/-- The row an entry of a [16, 1, 1] output belongs to, as a grid point. -/
def rowOf (i : S16x1x1.Idx) : Fin cfg0.N := ⟨(i 0).val, (i 0).isLt⟩

/-- What the first output array ends holding: at (r, 0, 0), KL(p ‖ m) of row r over the positions of the blocks the region finds. -/
def Gp (c : Dev nD) : S16x1x1.Idx → EReal := fun i =>
  rowKLpOn Finset.univ (blkRow (iblk m c 0 (rowOf i))) (blkRow (iblk m c 1 (rowOf i)))
/-- What the second output array ends holding: KL(q ‖ m) of row r. -/
def Gq (c : Dev nD) : S16x1x1.Idx → EReal := fun i =>
  rowKLqOn Finset.univ (blkRow (iblk m c 0 (rowOf i))) (blkRow (iblk m c 1 (rowOf i)))

/-- The output windows' index maps, decided over the grid: block t sits at (t, 0, 0). -/
theorem idx_facts : ∀ t : Fin cfg0.N, win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- What point `t` leaves in the two output blocks, from the blocks the region finds. -/
theorem outs_fst (c : Dev nD) (t : Fin cfg0.N) (y : S1x1x1.Idx) :
    (outsAt0 m c t).1 y = rowKLpOn Finset.univ (blkRow (iblk m c 0 t)) (blkRow (iblk m c 1 t)) := by
  unfold outsAt0
  exact out2_apply c (grid0.coords t) (ms0_0 t) (hs0_0 t) (ms0_1 t) (hs0_1 t) (ms0_2 t) (hs0_2 t) (ms0_3 t) (hs0_3 t) (iblk m c 0 t) (iblk m c 1 t) y

theorem outs_snd (c : Dev nD) (t : Fin cfg0.N) (y : S1x1x1.Idx) :
    (outsAt0 m c t).2 y = rowKLqOn Finset.univ (blkRow (iblk m c 0 t)) (blkRow (iblk m c 1 t)) := by
  unfold outsAt0
  exact out3_apply c (grid0.coords t) (ms0_0 t) (hs0_0 t) (ms0_1 t) (hs0_1 t) (ms0_2 t) (hs0_2 t) (ms0_3 t) (hs0_3 t) (iblk m c 0 t) (iblk m c 1 t) y

/-- WHAT POINT `t` WRITES BACK to the first output is block `t` of `Gp`. -/
theorem flushed2_eq (c : Dev nD) (t : Fin cfg0.N) :
    (dats m 0 c).flushed 2 t = ((cfg0.win 2).blk t).view.read (Elt Ideal) (Gp m c) := by
  show (cfg0.win 2).cut (grid0.coords t) ((dats m 0 c).after 2 t) = _
  rw [after0_2]
  funext y
  rw [View.read_apply]
  show (outsAt0 m c t).1 y = _
  have h0 : rowOf (((cfg0.win 2).blk t).view.emb y) = t := Fin.ext (by
    show win0_2.index t (0 : Fin 3) * 1 + 1 * (y 0).val = t.val
    have hy : (y 0).val < 1 := (y 0).isLt
    have := (idx_facts t).1
    omega)
  unfold Gp
  rw [h0]
  exact (outs_fst m c t y).trans (cast_eq _ _).symm

/-- WHAT POINT `t` WRITES BACK to the second output is block `t` of `Gq`. -/
theorem flushed3_eq (c : Dev nD) (t : Fin cfg0.N) :
    (dats m 0 c).flushed 3 t = ((cfg0.win 3).blk t).view.read (Elt Ideal) (Gq m c) := by
  show (cfg0.win 3).cut (grid0.coords t) ((dats m 0 c).after 3 t) = _
  rw [after0_3]
  funext y
  rw [View.read_apply]
  show (outsAt0 m c t).2 y = _
  have h0 : rowOf (((cfg0.win 3).blk t).view.emb y) = t := Fin.ext (by
    show win0_3.index t (0 : Fin 3) * 1 + 1 * (y 0).val = t.val
    have hy : (y 0).val < 1 := (y 0).isLt
    have := (idx_facts t).2.2.2.1
    omega)
  unfold Gq
  rw [h0]
  exact (outs_snd m c t y).trans (cast_eq _ _).symm

/-- An index of the first output is in point `t`'s block iff each coordinate is in the block's range on its axis. -/
theorem mem_blk2 (t : Fin cfg0.N) (i : S16x1x1.Idx) :
    i ∈ ((cfg0.win 2).blk t).view.set ↔ ∀ a : Fin 3, win0_2.index t a * S1x1x1.size a ≤ (i a).val ∧ (i a).val < win0_2.index t a * S1x1x1.size a + S1x1x1.size a := by
  show i ∈ ((View.whole main_v2_0).slice (win0_2.rect t)).set ↔ _
  rw [View.set_slice_whole, Rect.mem_set_unit]
  exact Iff.rfl

theorem mem_blk3 (t : Fin cfg0.N) (i : S16x1x1.Idx) :
    i ∈ ((cfg0.win 3).blk t).view.set ↔ ∀ a : Fin 3, win0_3.index t a * S1x1x1.size a ≤ (i a).val ∧ (i a).val < win0_3.index t a * S1x1x1.size a + S1x1x1.size a := by
  show i ∈ ((View.whole main_v2_1).slice (win0_3.rect t)).set ↔ _
  rw [View.set_slice_whole, Rect.mem_set_unit]
  exact Iff.rfl

/-- Every entry of the first output is in some point's block: entry (r, 0, 0) in point r's. -/
theorem cover2 (i : S16x1x1.Idx) : ∃ t : Fin cfg0.N, (cfg0.win 2).flush t = true ∧ i ∈ ((cfg0.win 2).blk t).view.set := by
  have hi0 : (i 0).val < 16 := (i 0).isLt
  have hi1 : (i 1).val < 1 := (i 1).isLt
  have hi2 : (i 2).val < 1 := (i 2).isLt
  refine ⟨⟨(i 0).val, hi0⟩, flush0_2 _, ?_⟩
  rw [mem_blk2]
  obtain ⟨e0', e1, e2, -, -, -⟩ := idx_facts ⟨(i 0).val, hi0⟩
  have e0 : win0_2.index ⟨(i 0).val, hi0⟩ (0 : Fin 3) = (i 0).val := e0'
  intro a
  match a with
  | ⟨0, _⟩ => show win0_2.index _ (0 : Fin 3) * 1 ≤ (i 0).val ∧ (i 0).val < win0_2.index _ (0 : Fin 3) * 1 + 1; rw [e0]; omega
  | ⟨1, _⟩ => show win0_2.index _ (1 : Fin 3) * 1 ≤ (i 1).val ∧ (i 1).val < win0_2.index _ (1 : Fin 3) * 1 + 1; rw [e1]; omega
  | ⟨2, _⟩ => show win0_2.index _ (2 : Fin 3) * 1 ≤ (i 2).val ∧ (i 2).val < win0_2.index _ (2 : Fin 3) * 1 + 1; rw [e2]; omega

theorem cover3 (i : S16x1x1.Idx) : ∃ t : Fin cfg0.N, (cfg0.win 3).flush t = true ∧ i ∈ ((cfg0.win 3).blk t).view.set := by
  have hi0 : (i 0).val < 16 := (i 0).isLt
  have hi1 : (i 1).val < 1 := (i 1).isLt
  have hi2 : (i 2).val < 1 := (i 2).isLt
  refine ⟨⟨(i 0).val, hi0⟩, flush0_3 _, ?_⟩
  rw [mem_blk3]
  obtain ⟨-, -, -, e0', e1, e2⟩ := idx_facts ⟨(i 0).val, hi0⟩
  have e0 : win0_3.index ⟨(i 0).val, hi0⟩ (0 : Fin 3) = (i 0).val := e0'
  intro a
  match a with
  | ⟨0, _⟩ => show win0_3.index _ (0 : Fin 3) * 1 ≤ (i 0).val ∧ (i 0).val < win0_3.index _ (0 : Fin 3) * 1 + 1; rw [e0]; omega
  | ⟨1, _⟩ => show win0_3.index _ (1 : Fin 3) * 1 ≤ (i 1).val ∧ (i 1).val < win0_3.index _ (1 : Fin 3) * 1 + 1; rw [e1]; omega
  | ⟨2, _⟩ => show win0_3.index _ (2 : Fin 3) * 1 ≤ (i 2).val ∧ (i 2).val < win0_3.index _ (2 : Fin 3) * 1 + 1; rw [e2]; omega

/-- THE FIRST OUTPUT ARRAY after the run. -/
theorem final2 (c : Dev nD) : (dats m 0 c).arrAt 2 cfg0.N = Gp m c :=
  (dats m 0 c).arrAt_eq_of_cover 2 (Gp m c) (fun t _ => flushed2_eq m c t) (cover2)

/-- THE SECOND OUTPUT ARRAY after the run. -/
theorem final3 (c : Dev nD) : (dats m 0 c).arrAt 3 cfg0.N = Gq m c :=
  (dats m 0 c).arrAt_eq_of_cover 3 (Gq m c) (fun t _ => flushed3_eq m c t) (cover3)

end Cert.KernelValue

end
-- ==== Proof.KernelTail.lean ====
/-
  The kernel program's result as the mathematics of RowMath.

  After the region the host clamps each output's sixteen entries to [0, 1000], halves their sum, sums the sixteen values
  from zero and divides by sixteen.  Before the region it re-lays each [2, 8, 128, 128, 128] argument as
  [16, 128, 16384], so row t = 8 b + c of the re-laid array at (sublane d, lane j) is the argument at
  (b, c, d, j / 128, j % 128).  A block's position (lane j, trip k, sublane s) is therefore the argument's position
  (b, c, 8 k + s, j / 128, j % 128), and these positions are exactly the row's, each once: the kernel's row value is the
  specification's row value re-indexed along a bijection, and the sum over the sixteen rows is the double sum over (b, c).
-/
import proofs.«153294_j42812234006951_2_alg».proof.Proof.KernelArray
import Idealize.ShloMosaic.Lib.StableHlo.Run

noncomputable section

namespace Cert.KernelValue

open Idealize.ShloMosaic Idealize.ShloMosaic.ValueIdx Idealize.ShloMosaic.TcCoe Idealize.SL.Sem
open Idealize.ShloMosaic.Tactic Idealize.ShloMosaic.StableHlo
open Cert.KernelIdeal Cert.KernelIdeal.Gen Cert.RowMath
open scoped BigOperators

/-! ## The host operations after the region -/

/-- The host operations after the region, as one function of the two output arrays. -/
def tail (A2 A3 : S16x1x1.Idx → EReal) : (⟨S_, .f32⟩ : BufTy).Contents (Elt Ideal) :=
  Host.divf
    (Host.reduceAdd
      (mulf (broadcastInDim S16 ![] bcast_S_S16 (constant (F := Ideal) S_ .f32 0x3F000000#32))
        (addf
          (minimumf (broadcastInDim S16 ![] bcast_S_S16 (constant (F := Ideal) S_ .f32 0x447A0000#32))
            (maximumf (broadcastInDim S16 ![] bcast_S_S16 (constant (F := Ideal) S_ .f32 0x00000000#32))
              (shapeCast S16 A2 shapeCasts_S16x1x1_S16)))
          (minimumf (broadcastInDim S16 ![] bcast_S_S16 (constant (F := Ideal) S_ .f32 0x447A0000#32))
            (maximumf (broadcastInDim S16 ![] bcast_S_S16 (constant (F := Ideal) S_ .f32 0x00000000#32))
              (shapeCast S16 A3 shapeCasts_S16x1x1_S16)))))
      (constant (F := Ideal) S_ .f32 0x00000000#32) reducesTo_S16_S_d0 h_S_)
    (constant (F := Ideal) S_ .f32 0x41800000#32)

/-- A sum over the indices of a rank-1 shape is the sum over its coordinate. -/
theorem sum_idx1 {n : ℕ} (f : (⟨1, ![n]⟩ : Shape).Idx → EReal) : ∑ j, f j = ∑ a : Fin n, f (ix1 a) :=
  Fintype.sum_equiv ⟨fun j => j 0, fun a => ix1 a, fun j => (eq_ix1 j).symm, fun _ => rfl⟩ _ _
    fun j => congrArg f (eq_ix1 j)

/-- A [16, 1, 1] array re-laid as [16] reads, at r, the entry (r, 0, 0). -/
theorem cast16_apply (A : S16x1x1.Idx → EReal) (a : Fin 16) :
    shapeCast S16 A shapeCasts_S16x1x1_S16 (ix1 a) = A (ix3 a (0 : Fin 1) (0 : Fin 1)) :=
  shapeCast_apply A _ _ _ (by
    rw [Shape.rowMajor_val_three, Shape.rowMajor_val_one]
    show (a.val * 1 + 0) * 1 + 0 = a.val
    omega)

/-- The host's sum of a [16] array from an initial value. -/
theorem reduce16_apply (y : FVec Ideal S16 .f32) (init : S_.Idx → Ideal .f32) (i : S_.Idx) :
    Host.reduceAdd y init reducesTo_S16_S_d0 h_S_ i = init (Shape.Idx.first h_S_) + ∑ j : S16.Idx, y j :=
  (show Host.reduceAdd y init reducesTo_S16_S_d0 h_S_ i
      = Ideal.hostReduceAdd reducesTo_S16_S_d0 y (init (Shape.Idx.first h_S_)) i from rfl).trans
    (Ideal.hostReduceAdd_total reducesTo_S16_S_d0 (fun b => b.elim0) y _ i)

/-- The tail read: the mean over the sixteen rows of ½ (clamp of the first output + clamp of the second). -/
theorem tail_apply (A2 A3 : S16x1x1.Idx → EReal) (i : S_.Idx) :
    tail A2 A3 i
      = Ideal.div (∑ a : Fin 16, Ideal.ofBits .f32 0x3F000000#32
            * (clampKL (A2 (ix3 a (0 : Fin 1) (0 : Fin 1))) + clampKL (A3 (ix3 a (0 : Fin 1) (0 : Fin 1)))))
          (Ideal.ofBits .f32 0x41800000#32) := by
  unfold tail
  refine congrArg (Ideal.div · (Ideal.ofBits .f32 0x41800000#32)) ?_
  refine (reduce16_apply _ _ i).trans ?_
  rw [show (constant (F := Ideal) S_ .f32 0x00000000#32) (Shape.Idx.first h_S_) = (0 : EReal) from Ideal.ofBits_zero_f32,
    zero_add, sum_idx1]
  refine Finset.sum_congr rfl fun a _ => ?_
  show Ideal.ofBits .f32 0x3F000000#32
      * (min (Ideal.ofBits .f32 0x447A0000#32) (max (Ideal.ofBits .f32 0x00000000#32) (shapeCast S16 A2 shapeCasts_S16x1x1_S16 (ix1 a)))
        + min (Ideal.ofBits .f32 0x447A0000#32) (max (Ideal.ofBits .f32 0x00000000#32) (shapeCast S16 A3 shapeCasts_S16x1x1_S16 (ix1 a)))) = _
  rw [cast16_apply, cast16_apply]
  rfl

variable (m : (ℓ : Loc nD τ sig) → Buf (Elt Ideal) ℓ)

/-- What the lines after the region leave in the result buffer: the tail of the two output arrays after the run. -/
theorem tail_eq (c : Dev nD) :
    Pipeline.afterTail₀ cfgs (dats m) 0 (V0 m) [hostOps1, hostOps1_1, hostOps1_2, hostOps1_3, hostOps1_4] c main_v11
      = tail ((dats m 0 c).arrAt 2 cfg0.N) ((dats m 0 c).arrAt 3 cfg0.N) := by
  have e2 : Pipeline.withArrays (cfgs 0).spec c (V0 m c) (fun w => (dats m 0 c).arrAt w (cfgs 0).N) (Proc.devRef .tc main_v2_0)
      = (dats m 0 c).arrAt 2 cfg0.N := Pipeline.withArrays_arr spec0 launch0.win.arr_inj c _ _ 2
  have e3 : Pipeline.withArrays (cfgs 0).spec c (V0 m c) (fun w => (dats m 0 c).arrAt w (cfgs 0).N) (Proc.devRef .tc main_v2_1)
      = (dats m 0 c).arrAt 3 cfg0.N := Pipeline.withArrays_arr spec0 launch0.win.arr_inj c _ _ 3
  generalize hR : tail ((dats m 0 c).arrAt 2 cfg0.N) ((dats m 0 c).arrAt 3 cfg0.N) = R
  unfold Pipeline.afterTail₀
  simp only [hostOps1, hostOps1_1, hostOps1_2, hostOps1_3, hostOps1_4, List.flatten_cons, List.flatten_nil, List.append_nil,
    List.cons_append, List.nil_append]
  after_results
  rw [e2, e3, ← hR]
  rfl

/-! ## The re-laid arguments and a block's positions -/

/-- The input windows' index maps, decided over the grid: block t is row t. -/
theorem in_idx_facts : ∀ t : Fin cfg0.N, win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0 :=
  (by decide +kernel : ∀ t : Fin grid0.N, _)

/-- The region finds the first argument re-laid as [16, 128, 16384]. -/
theorem V_main_v0 (c : Dev nD) :
    (V m c main_v0 : S16x128x16384.Idx → EReal)
      = shapeCast S16x128x16384 (m ((c : Thread nD τ).loc main_arg0)) shapeCasts_S2x8x128x128x128_S16x128x16384 := by
  show StableHlo.after hostOps0 (fun b => m (c, b)) (Proc.devRef .tc main_v0) = _
  after_results
  rfl

/-- The region finds the second argument re-laid as [16, 128, 16384]. -/
theorem V_main_v1 (c : Dev nD) :
    (V m c main_v1 : S16x128x16384.Idx → EReal)
      = shapeCast S16x128x16384 (m ((c : Thread nD τ).loc main_arg1)) shapeCasts_S2x8x128x128x128_S16x128x16384 := by
  show StableHlo.after hostOps0 (fun b => m (c, b)) (Proc.devRef .tc main_v1) = _
  after_results
  rfl

/-- The argument's position of a block's position (lane, trip, sublane) in row (b, c). -/
def posIdx (b : Fin 2) (c : Fin 8) (q : Pos) : (⟨5, ![2, 8, 128, 128, 128]⟩ : Shape).Idx :=
  ix5 b c ⟨8 * q.2.1.val + q.2.2.val, by have := q.2.1.isLt; have := q.2.2.isLt; omega⟩
    ⟨q.1.val / 128, by have := q.1.isLt; omega⟩ ⟨q.1.val % 128, by omega⟩

/-- Re-indexing a row's positions along a map that sends `t` into `s`, injectively and onto, changes none of its sums
    (the bijection stated by its three facts on finite sets). -/
theorem rowDenOn_reindex_of {ι κ : Type} (s : Finset ι) (t : Finset κ) (e : κ → ι)
    (hm : ∀ q ∈ t, e q ∈ s) (hinj : ∀ q ∈ t, ∀ q' ∈ t, e q = e q' → q = q') (hsurj : ∀ i ∈ s, ∃ q ∈ t, e q = i)
    (u : ι → EReal) : rowDenOn t (u ∘ e) = rowDenOn s u := by
  unfold rowDenOn
  exact congrArg den (Finset.sum_bij (fun q _ => e q) hm hinj
    (fun i hi => by obtain ⟨q, hq, h⟩ := hsurj i hi; exact ⟨q, hq, h⟩) fun _ _ => rfl)

theorem rowJSOn_reindex_of {ι κ : Type} (s : Finset ι) (t : Finset κ) (e : κ → ι)
    (hm : ∀ q ∈ t, e q ∈ s) (hinj : ∀ q ∈ t, ∀ q' ∈ t, e q = e q' → q = q') (hsurj : ∀ i ∈ s, ∃ q ∈ t, e q = i)
    (u v : ι → EReal) : rowJSOn t (u ∘ e) (v ∘ e) = rowJSOn s u v := by
  unfold rowJSOn rowKLpOn rowKLqOn
  rw [rowDenOn_reindex_of s t e hm hinj hsurj u, rowDenOn_reindex_of s t e hm hinj hsurj v]
  rw [Finset.sum_bij (s := t) (t := s) (fun q _ => e q) hm hinj
      (fun i hi => by obtain ⟨q, hq, h⟩ := hsurj i hi; exact ⟨q, hq, h⟩)
      (f := fun q => termP (rowDenOn s u) (rowDenOn s v) ((u ∘ e) q) ((v ∘ e) q))
      (g := fun i => termP (rowDenOn s u) (rowDenOn s v) (u i) (v i)) fun _ _ => rfl,
    Finset.sum_bij (s := t) (t := s) (fun q _ => e q) hm hinj
      (fun i hi => by obtain ⟨q, hq, h⟩ := hsurj i hi; exact ⟨q, hq, h⟩)
      (f := fun q => termQ (rowDenOn s u) (rowDenOn s v) ((u ∘ e) q) ((v ∘ e) q))
      (g := fun i => termQ (rowDenOn s u) (rowDenOn s v) (u i) (v i)) fun _ _ => rfl]

/-- A block's position lands in the row. -/
theorem posIdx_mem (b : Fin 2) (c : Fin 8) (q : Pos) : posIdx b c q ∈ rowSet b c := mem_rowSet.mpr ⟨rfl, rfl⟩

/-- Distinct positions of the block are distinct positions of the row. -/
theorem posIdx_inj (b : Fin 2) (c : Fin 8) (q q' : Pos) (h : posIdx b c q = posIdx b c q') : q = q' := by
  obtain ⟨j, k, s⟩ := q
  obtain ⟨j', k', s'⟩ := q'
  have e2 : 8 * k.val + s.val = 8 * k'.val + s'.val := congrArg (fun i => (i 2).val) h
  have e3 : j.val / 128 = j'.val / 128 := congrArg (fun i => (i 3).val) h
  have e4 : j.val % 128 = j'.val % 128 := congrArg (fun i => (i 4).val) h
  have hs := s.isLt
  have hs' := s'.isLt
  have ej : j = j' := Fin.ext (by omega)
  have ek : k = k' := Fin.ext (by omega)
  have es : s = s' := Fin.ext (by omega)
  rw [ej, ek, es]

/-- Every position of the row is a position of the block. -/
theorem posIdx_surj (b : Fin 2) (c : Fin 8) (i : (⟨5, ![2, 8, 128, 128, 128]⟩ : Shape).Idx) (hi : i ∈ rowSet b c) :
    ∃ q : Pos, posIdx b c q = i := by
  have hi' := mem_rowSet.mp hi
  have h2 : (i 2).val < 128 := (i 2).isLt
  have h3 : (i 3).val < 128 := (i 3).isLt
  have h4 : (i 4).val < 128 := (i 4).isLt
  have q1 : (i 3).val * 128 + (i 4).val < 16384 := by omega
  have q2 : (i 2).val / 8 < 16 := by omega
  have q3 : (i 2).val % 8 < 8 := by omega
  refine ⟨((⟨(i 3).val * 128 + (i 4).val, q1⟩ : Fin 16384), (⟨(i 2).val / 8, q2⟩ : Fin 16), (⟨(i 2).val % 8, q3⟩ : Fin 8)), ?_⟩
  funext d
  apply Fin.ext
  match d with
  | ⟨0, _⟩ => show b.val = (i 0).val; rw [hi'.1]
  | ⟨1, _⟩ => show c.val = (i 1).val; rw [hi'.2]
  | ⟨2, _⟩ => show 8 * ((i 2).val / 8) + (i 2).val % 8 = (i 2).val; omega
  | ⟨3, _⟩ => show ((i 3).val * 128 + (i 4).val) / 128 = (i 3).val; omega
  | ⟨4, _⟩ => show ((i 3).val * 128 + (i 4).val) % 128 = (i 4).val; omega

/-- Row t = 8 b + c of the re-laid first argument, at a block's position, is the argument at that position's index. -/
theorem blkRow_iblk0 (c : Dev nD) (b : Fin 2) (cc : Fin 8) (t : Fin cfg0.N) (ht : t.val = 8 * b.val + cc.val) :
    blkRow (iblk m c 0 t) = (m ((c : Thread nD τ).loc main_arg0)) ∘ posIdx b cc := by
  funext q
  obtain ⟨j, k, s⟩ := q
  have hk := k.isLt
  have hs := s.isLt
  have hj := j.isLt
  obtain ⟨e0, e1, e2, -, -, -⟩ := in_idx_facts t
  show rowNat (iblk m c 0 t) (8 * k.val + s.val) j = _
  unfold rowNat
  rw [dif_pos (by omega)]
  show V m c main_v0 (((cfg0.win 0).blk t).view.emb (ix3 (0 : Fin 1) ⟨8 * k.val + s.val, by omega⟩ j)) = _
  rw [V_main_v0]
  refine shapeCast_apply _ _ _ _ ?_
  show (Shape.rowMajor ⟨5, ![2, 8, 128, 128, 128]⟩ _).val = (Shape.rowMajor ⟨3, ![16, 128, 16384]⟩ _).val
  rw [Shape.rowMajor_val_five, Shape.rowMajor_val_three]
  show (((b.val * 8 + cc.val) * 128 + (8 * k.val + s.val)) * 128 + j.val / 128) * 128 + j.val % 128
    = ((win0_0.index t (0 : Fin 3) * 1 + 1 * 0) * 128 + (win0_0.index t (1 : Fin 3) * 128 + 1 * (8 * k.val + s.val))) * 16384
      + (win0_0.index t (2 : Fin 3) * 16384 + 1 * j.val)
  rw [e0, e1, e2, ht]
  omega

/-- The same for the second argument. -/
theorem blkRow_iblk1 (c : Dev nD) (b : Fin 2) (cc : Fin 8) (t : Fin cfg0.N) (ht : t.val = 8 * b.val + cc.val) :
    blkRow (iblk m c 1 t) = (m ((c : Thread nD τ).loc main_arg1)) ∘ posIdx b cc := by
  funext q
  obtain ⟨j, k, s⟩ := q
  have hk := k.isLt
  have hs := s.isLt
  have hj := j.isLt
  obtain ⟨-, -, -, e0, e1, e2⟩ := in_idx_facts t
  show rowNat (iblk m c 1 t) (8 * k.val + s.val) j = _
  unfold rowNat
  rw [dif_pos (by omega)]
  show V m c main_v1 (((cfg0.win 1).blk t).view.emb (ix3 (0 : Fin 1) ⟨8 * k.val + s.val, by omega⟩ j)) = _
  rw [V_main_v1]
  refine shapeCast_apply _ _ _ _ ?_
  show (Shape.rowMajor ⟨5, ![2, 8, 128, 128, 128]⟩ _).val = (Shape.rowMajor ⟨3, ![16, 128, 16384]⟩ _).val
  rw [Shape.rowMajor_val_five, Shape.rowMajor_val_three]
  show (((b.val * 8 + cc.val) * 128 + (8 * k.val + s.val)) * 128 + j.val / 128) * 128 + j.val % 128
    = ((win0_1.index t (0 : Fin 3) * 1 + 1 * 0) * 128 + (win0_1.index t (1 : Fin 3) * 128 + 1 * (8 * k.val + s.val))) * 16384
      + (win0_1.index t (2 : Fin 3) * 16384 + 1 * j.val)
  rw [e0, e1, e2, ht]
  omega

/-! ## The result -/

/-- The row value the kernel program forms for row t = 8 b + c is the specification's for row (b, c). -/
theorem row_eq (c : Dev nD) (b : Fin 2) (cc : Fin 8) (a : Fin 16) (ha : a.val = 8 * b.val + cc.val) :
    Ideal.ofBits .f32 0x3F000000#32
        * (clampKL (Gp m c (ix3 a (0 : Fin 1) (0 : Fin 1))) + clampKL (Gq m c (ix3 a (0 : Fin 1) (0 : Fin 1))))
      = rowJSOn (rowSet b cc) (m ((c : Thread nD τ).loc main_arg0)) (m ((c : Thread nD τ).loc main_arg1)) := by
  have e : Ideal.ofBits .f32 0x3F000000#32
        * (clampKL (Gp m c (ix3 a (0 : Fin 1) (0 : Fin 1))) + clampKL (Gq m c (ix3 a (0 : Fin 1) (0 : Fin 1))))
      = rowJSOn Finset.univ (blkRow (iblk m c 0 (rowOf (ix3 a (0 : Fin 1) (0 : Fin 1)))))
          (blkRow (iblk m c 1 (rowOf (ix3 a (0 : Fin 1) (0 : Fin 1))))) := rfl
  rw [e, blkRow_iblk0 m c b cc (rowOf (ix3 a (0 : Fin 1) (0 : Fin 1))) ha,
    blkRow_iblk1 m c b cc (rowOf (ix3 a (0 : Fin 1) (0 : Fin 1))) ha]
  exact rowJSOn_reindex_of (rowSet b cc) Finset.univ (posIdx b cc) (fun q _ => posIdx_mem b cc q)
    (fun q _ q' _ h => posIdx_inj b cc q q' h)
    (fun i hi => by obtain ⟨q, hq⟩ := posIdx_surj b cc i hi; exact ⟨q, by simp, hq⟩) _ _

/-- THE KERNEL PROGRAM'S RESULT, as the lines after the region leave it, is the specification's result of the arguments. -/
theorem kernel_result (c : Dev nD) (i : S_.Idx) :
    Pipeline.afterTail₀ cfgs (dats m) 0 (V0 m) [hostOps1, hostOps1_1, hostOps1_2, hostOps1_3, hostOps1_4] c main_v11 i
      = RowMath.result (m ((c : Thread nD τ).loc main_arg0)) (m ((c : Thread nD τ).loc main_arg1)) := by
  rw [tail_eq, final2, final3, tail_apply]
  unfold RowMath.result
  refine congrArg (Ideal.div · (Ideal.ofBits .f32 0x41800000#32)) ?_
  rw [← Fintype.sum_prod_type']
  refine ((Equiv.sum_comp (finProdFinEquiv (m := 2) (n := 8)) fun a : Fin 16 => Ideal.ofBits .f32 0x3F000000#32
      * (clampKL (Gp m c (ix3 a (0 : Fin 1) (0 : Fin 1))) + clampKL (Gq m c (ix3 a (0 : Fin 1) (0 : Fin 1))))).symm).trans ?_
  refine Finset.sum_congr rfl fun x _ => ?_
  exact row_eq m c x.1 x.2 (finProdFinEquiv x) (by show x.2.val + 8 * x.1.val = 8 * x.1.val + x.2.val; omega)

end Cert.KernelValue

end
-- ==== Proof.RefValue.lean ====
/-
  The reference program's result, read down to the mathematics.

  The reference clamps both arguments to [1e-6, 1e6], sums each (batch, channel) row over the three spatial axes, keeps
  the two row totals above ε, divides, forms the mixture ½ (p + q), clamps p, q and the mixture to [ε, 1], sums
  p · (log p − log m) and q · (log q − log m) over each row, clamps the two row sums to [0, 1000], halves their sum,
  and takes the mean over the sixteen rows.

  Each of its four sums over the spatial axes, read at the row index (b, c), is the sum over the positions whose first
  two coordinates are (b, c): dropping the three summed axes of a position leaves exactly those two coordinates
  (`drop_eq_iff`), so the summed set is the row's set of positions (`filter_drop_eq_rowSet`), and the initial value,
  the zero word, is the extended real 0 (`reduce_row`). A row quantity broadcast back to the full array is read, at a
  position of row (b, c), at (b, c) (`idx_row`); under a sum over the row every position is one of that row, so the
  integrand is the row's term at its own denominators. The last sum runs over all sixteen row indices and is the double
  sum over (b, c). Every float constant stays the exact value of its bit pattern; only the zero word is evaluated.
-/
import proofs.«153294_j42812234006951_2_alg».proof.Proof.Gen.ReferenceIdeal.Read
import proofs.«153294_j42812234006951_2_alg».proof.Proof.RowMath
import Idealize.ShloMosaic.Lib.ValueIdx
import Idealize.ShloMosaic.PureOps.Ideal.Laws

noncomputable section

namespace Cert.RefValue

open Cert.ReferenceIdeal Cert.ReferenceIdeal.Gen Cert.ReferenceIdeal.Read Cert.RowMath
open Idealize.ShloMosaic Idealize.ShloMosaic.ValueIdx Idealize.ShloMosaic.StableHlo
open scoped BigOperators

/-- Dropping the three spatial axes of a position leaves its batch and channel coordinates. -/
theorem drop_eq_iff (i : S2x8x128x128x128.Idx) (b : Fin 2) (c : Fin 8) :
    reducesTo_S2x8x128x128x128_S2x8_d2_3_4.drop i = ix2 b c ↔ i 0 = b ∧ i 1 = c := by
  constructor
  · intro h
    exact ⟨congrFun h 0, congrFun h 1⟩
  · rintro ⟨h0, h1⟩
    funext a
    match a with
    | ⟨0, _⟩ => exact h0
    | ⟨1, _⟩ => exact h1

open Classical in
/-- The positions that reduce to `(b, c)` are the row's positions. -/
theorem filter_drop_eq_rowSet (b : Fin 2) (c : Fin 8) :
    (Finset.univ.filter fun i : S2x8x128x128x128.Idx => reducesTo_S2x8x128x128x128_S2x8_d2_3_4.drop i = ix2 b c)
      = rowSet b c := by
  ext i
  rw [Finset.mem_filter, mem_rowSet, drop_eq_iff]
  exact ⟨fun h => h.2, fun h => ⟨Finset.mem_univ _, h⟩⟩

/-- The reference's sum over the three spatial axes, started from the zero word, read at `(b, c)`: the sum over the
    row's positions. -/
theorem reduce_row (g : (⟨S2x8x128x128x128, .f32⟩ : BufTy).Contents (Elt Ideal)) (b : Fin 2) (c : Fin 8) :
    Host.reduceAdd (F := Ideal) g (constant S_ .f32 0x00000000#32) reducesTo_S2x8x128x128x128_S2x8_d2_3_4 h_S_ (ix2 b c)
      = ∑ i ∈ rowSet b c, g i := by
  simp only [Host.reduceAdd, Ideal.hostReduceAdd_def]
  unfold Ideal.hostReduceAdd
  rw [← filter_drop_eq_rowSet b c]
  show Ideal.ofBits .f32 0x00000000#32 + _ = _
  rw [Ideal.ofBits_zero_f32, zero_add]

/-- A position's row index, carried through the two broadcasts `[2,8] → [2,8,1,1,1] → [2,8,128,128,128]`. -/
theorem idx_row (i : S2x8x128x128x128.Idx) (b : Fin 2) (c : Fin 8) (hb : i 0 = b) (hc : i 1 = c) :
    idx_main_v2 (idx_main_v4 i) = ix2 b c := by
  subst hb hc
  funext a
  match a with
  | ⟨0, _⟩ => rfl
  | ⟨1, _⟩ => rfl

/-! ## The clamped inputs and the two denominators -/

variable (X0 X1 : (⟨S2x8x128x128x128, .f32⟩ : BufTy).Contents (Elt Ideal))

/-- The first argument clamped to `[1e-6, 1e6]`, at a position. -/
theorem v0_apply (i : S2x8x128x128x128.Idx) : val_main_v0 (F := Ideal) X0 i = clampIn (X0 i) := by
  simp only [val_main_v0_apply, val_main_call0_v4_apply, val_main_call0_v3_apply, val_main_cst_0_apply,
    val_main_call0_v2_apply, val_main_call0_v1_apply, val_main_call0_v0_apply, val_main_cst_apply,
    Ideal.minimumf_def, Ideal.maximumf_def, Ideal.ofBits_def]
  rfl

/-- The second argument clamped likewise. -/
theorem v6_apply (i : S2x8x128x128x128.Idx) : val_main_v6 (F := Ideal) X1 i = clampIn (X1 i) := by
  simp only [val_main_v6_apply, val_main_call2_v4_apply, val_main_call2_v3_apply, val_main_cst_4_apply,
    val_main_call2_v2_apply, val_main_call2_v1_apply, val_main_call2_v0_apply, val_main_cst_3_apply,
    Ideal.minimumf_def, Ideal.maximumf_def, Ideal.ofBits_def]
  rfl

/-- The first argument's row total. -/
theorem v1_apply (b : Fin 2) (c : Fin 8) :
    val_main_v1 (F := Ideal) X0 (ix2 b c) = ∑ i ∈ rowSet b c, clampIn (X0 i) := by
  unfold val_main_v1 val_main_cst_1
  rw [reduce_row]
  exact Finset.sum_congr rfl fun i _ => v0_apply X0 i

/-- The second argument's row total. -/
theorem v7_apply (b : Fin 2) (c : Fin 8) :
    val_main_v7 (F := Ideal) X1 (ix2 b c) = ∑ i ∈ rowSet b c, clampIn (X1 i) := by
  unfold val_main_v7 val_main_cst_5
  rw [reduce_row]
  exact Finset.sum_congr rfl fun i _ => v6_apply X1 i

/-- The first denominator, broadcast back to a position: its row's. -/
theorem v4_apply (i : S2x8x128x128x128.Idx) (b : Fin 2) (c : Fin 8) (hb : i 0 = b) (hc : i 1 = c) :
    val_main_v4 (F := Ideal) X0 i = rowDenOn (rowSet b c) X0 := by
  rw [val_main_v4_apply, val_main_v3_apply, val_main_v2_apply, idx_row i b c hb hc, v1_apply]
  simp only [val_main_call1_v1_apply, val_main_call1_v0_apply, val_main_cst_2_apply, Ideal.maximumf_def, Ideal.ofBits_def]
  rfl

/-- The second denominator likewise. -/
theorem v10_apply (i : S2x8x128x128x128.Idx) (b : Fin 2) (c : Fin 8) (hb : i 0 = b) (hc : i 1 = c) :
    val_main_v10 (F := Ideal) X1 i = rowDenOn (rowSet b c) X1 := by
  rw [val_main_v10_apply, val_main_v9_apply, val_main_v8_apply]
  have h : idx_main_v8 (idx_main_v10 i) = ix2 b c := idx_row i b c hb hc
  rw [h, v7_apply]
  simp only [val_main_call3_v1_apply, val_main_call3_v0_apply, val_main_cst_6_apply, Ideal.maximumf_def, Ideal.ofBits_def]
  rfl

/-! ## One position of the two Kullback–Leibler sums -/

section Position

variable (i : S2x8x128x128x128.Idx) (b : Fin 2) (c : Fin 8) (hb : i 0 = b) (hc : i 1 = c)
include hb hc

/-- `p` at a position of row `(b, c)`. -/
theorem v5_apply : val_main_v5 (F := Ideal) X0 i = Ideal.div (clampIn (X0 i)) (rowDenOn (rowSet b c) X0) := by
  rw [val_main_v5_apply, Ideal.hostDivf_def, v0_apply, v4_apply X0 i b c hb hc]

/-- `q` at a position of row `(b, c)`. -/
theorem v11_apply : val_main_v11 (F := Ideal) X1 i = Ideal.div (clampIn (X1 i)) (rowDenOn (rowSet b c) X1) := by
  rw [val_main_v11_apply, Ideal.hostDivf_def, v6_apply, v10_apply X1 i b c hb hc]

/-- The mixture at a position. -/
theorem v14_apply : val_main_v14 (F := Ideal) X0 X1 i
    = mix (Ideal.div (clampIn (X0 i)) (rowDenOn (rowSet b c) X0)) (Ideal.div (clampIn (X1 i)) (rowDenOn (rowSet b c) X1)) := by
  rw [val_main_v14_apply, val_main_v13_apply, val_main_cst_7_apply, val_main_v12_apply, v5_apply X0 i b c hb hc,
    v11_apply X1 i b c hb hc]
  rfl

/-- `p` clamped to `[ε, 1]`. -/
theorem v15_apply : val_main_v15 (F := Ideal) X0 i = clampP (Ideal.div (clampIn (X0 i)) (rowDenOn (rowSet b c) X0)) := by
  rw [val_main_v15_apply, val_main_call4_v4_apply, val_main_call4_v3_apply, val_main_cst_9_apply, val_main_call4_v2_apply,
    val_main_call4_v1_apply, val_main_call4_v0_apply, val_main_cst_8_apply, v5_apply X0 i b c hb hc]
  rfl

/-- The mixture clamped to `[ε, 1]`, as the first sum reads it. -/
theorem v16_apply : val_main_v16 (F := Ideal) X0 X1 i
    = clampP (mix (Ideal.div (clampIn (X0 i)) (rowDenOn (rowSet b c) X0)) (Ideal.div (clampIn (X1 i)) (rowDenOn (rowSet b c) X1))) := by
  rw [val_main_v16_apply, val_main_call5_v4_apply, val_main_call5_v3_apply, val_main_cst_11_apply, val_main_call5_v2_apply,
    val_main_call5_v1_apply, val_main_call5_v0_apply, val_main_cst_10_apply, v14_apply X0 X1 i b c hb hc]
  rfl

/-- The term of KL(p ‖ m) at a position. -/
theorem v20_apply : val_main_v20 (F := Ideal) X0 X1 i
    = termP (rowDenOn (rowSet b c) X0) (rowDenOn (rowSet b c) X1) (X0 i) (X1 i) := by
  rw [val_main_v20_apply, val_main_v19_apply, val_main_v17_apply, val_main_v18_apply, v15_apply X0 i b c hb hc,
    v16_apply X0 X1 i b c hb hc]
  rfl

/-- `q` clamped to `[ε, 1]`. -/
theorem v23_apply : val_main_v23 (F := Ideal) X1 i = clampP (Ideal.div (clampIn (X1 i)) (rowDenOn (rowSet b c) X1)) := by
  rw [val_main_v23_apply, val_main_call7_v4_apply, val_main_call7_v3_apply, val_main_cst_16_apply, val_main_call7_v2_apply,
    val_main_call7_v1_apply, val_main_call7_v0_apply, val_main_cst_15_apply, v11_apply X1 i b c hb hc]
  rfl

/-- The mixture clamped to `[ε, 1]`, as the second sum reads it. -/
theorem v24_apply : val_main_v24 (F := Ideal) X0 X1 i
    = clampP (mix (Ideal.div (clampIn (X0 i)) (rowDenOn (rowSet b c) X0)) (Ideal.div (clampIn (X1 i)) (rowDenOn (rowSet b c) X1))) := by
  rw [val_main_v24_apply, val_main_call8_v4_apply, val_main_call8_v3_apply, val_main_cst_18_apply, val_main_call8_v2_apply,
    val_main_call8_v1_apply, val_main_call8_v0_apply, val_main_cst_17_apply, v14_apply X0 X1 i b c hb hc]
  rfl

/-- The term of KL(q ‖ m) at a position. -/
theorem v28_apply : val_main_v28 (F := Ideal) X0 X1 i
    = termQ (rowDenOn (rowSet b c) X0) (rowDenOn (rowSet b c) X1) (X0 i) (X1 i) := by
  rw [val_main_v28_apply, val_main_v27_apply, val_main_v25_apply, val_main_v26_apply, v23_apply X1 i b c hb hc,
    v24_apply X0 X1 i b c hb hc]
  rfl

end Position

/-! ## The rows -/

section RowStage

variable (b : Fin 2) (c : Fin 8)

/-- KL(p ‖ m) of row `(b, c)`. -/
theorem v21_apply : val_main_v21 (F := Ideal) X0 X1 (ix2 b c) = rowKLpOn (rowSet b c) X0 X1 := by
  unfold val_main_v21 val_main_cst_12
  rw [reduce_row]
  exact Finset.sum_congr rfl fun i hi => v20_apply X0 X1 i b c (mem_rowSet.mp hi).1 (mem_rowSet.mp hi).2

/-- KL(q ‖ m) of row `(b, c)`. -/
theorem v29_apply : val_main_v29 (F := Ideal) X0 X1 (ix2 b c) = rowKLqOn (rowSet b c) X0 X1 := by
  unfold val_main_v29 val_main_cst_19
  rw [reduce_row]
  exact Finset.sum_congr rfl fun i hi => v28_apply X0 X1 i b c (mem_rowSet.mp hi).1 (mem_rowSet.mp hi).2

/-- The first divergence clamped to `[0, 1000]`. -/
theorem v22_apply : val_main_v22 (F := Ideal) X0 X1 (ix2 b c) = clampKL (rowKLpOn (rowSet b c) X0 X1) := by
  rw [val_main_v22_apply, val_main_call6_v4_apply, val_main_call6_v3_apply, val_main_cst_14_apply, val_main_call6_v2_apply,
    val_main_call6_v1_apply, val_main_call6_v0_apply, val_main_cst_13_apply, v21_apply]
  rfl

/-- The second divergence clamped to `[0, 1000]`. -/
theorem v30_apply : val_main_v30 (F := Ideal) X0 X1 (ix2 b c) = clampKL (rowKLqOn (rowSet b c) X0 X1) := by
  rw [val_main_v30_apply, val_main_call9_v4_apply, val_main_call9_v3_apply, val_main_cst_21_apply, val_main_call9_v2_apply,
    val_main_call9_v1_apply, val_main_call9_v0_apply, val_main_cst_20_apply, v29_apply]
  rfl

/-- The row's Jensen–Shannon value. -/
theorem v33_apply : val_main_v33 (F := Ideal) X0 X1 (ix2 b c) = rowJSOn (rowSet b c) X0 X1 := by
  rw [val_main_v33_apply, val_main_v32_apply, val_main_cst_22_apply, val_main_v31_apply, v22_apply, v30_apply]
  rfl

end RowStage

/-! ## The mean over the sixteen rows -/

/-- THE REFERENCE's result is the specification's. -/
theorem result_eq (i : S_.Idx) : val_main_v35 (F := Ideal) X0 X1 i = result X0 X1 := by
  rw [val_main_v35_apply, val_main_v34_apply, val_main_cst_24_apply, val_main_cst_23_apply, sum_idx2, Ideal.hostDivf_def,
    Ideal.ofBits_def, Ideal.ofBits_def, Ideal.ofBits_zero_f32, zero_add]
  have h : (∑ b : Fin 2, ∑ c : Fin 8, val_main_v33 (F := Ideal) X0 X1 (ix2 b c))
      = ∑ b : Fin 2, ∑ c : Fin 8, rowJSOn (rowSet b c) X0 X1 :=
    Finset.sum_congr rfl fun b _ => Finset.sum_congr rfl fun c _ => v33_apply X0 X1 b c
  rw [h]
  rfl

end Cert.RefValue

end
-- ==== Proof.lean ====
/-
  Both programs compute, from two [2, 8, 128, 128, 128] arrays, the mean over the sixteen (batch, channel) rows of a
  Jensen–Shannon value: each row's entries are clamped to [1e-6, 1e6] and divided by the row total (kept above ε);
  with m = ½ (p + q) the row's value is ½ (clamp KL(p ‖ m) + clamp KL(q ‖ m)), the divergences summed over the
  row's 128³ positions with p, q, m clamped to [ε, 1], and clamped to [0, 1000] (RowMath.lean states it).

  The kernel sees each row as a [128, 16384] block and sums it in sixteen trips of eight sublanes per lane and then over
  lanes, twice (totals, then divergences), one grid point per row; the host then clamps, halves, sums the sixteen rows
  and divides.  The reference sums each row over its three spatial axes at once.  On the extended reals the two differ
  only in how a row's positions are enumerated, and a sum over a finite set does not depend on that: the kernel's
  positions (lane, trip, sublane) correspond one to one to the row's positions in the array (KernelTail.lean), so the two
  results are one function of the arguments.  No finiteness of the inputs is used: only that addition on the extended
  reals is commutative and associative with zero neutral, and every float literal is the same bit pattern on both
  sides.  The kernel's idealization rewrites nothing, so there is nothing to preserve.
-/
import proofs.«153294_j42812234006951_2_alg».proof.Defs
import proofs.«153294_j42812234006951_2_alg».proof.Proof.Gen.Kernel
import proofs.«153294_j42812234006951_2_alg».proof.Proof.Gen.Kernel.Skeleton
import proofs.«153294_j42812234006951_2_alg».proof.Proof.Gen.Kernel.Loops
import proofs.«153294_j42812234006951_2_alg».proof.Proof.Gen.Kernel.Launch
import proofs.«153294_j42812234006951_2_alg».proof.Proof.Gen.Kernel.Points
import proofs.«153294_j42812234006951_2_alg».proof.Proof.Gen.Kernel.Frame
import proofs.«153294_j42812234006951_2_alg».proof.Proof.Gen.KernelIdeal
import proofs.«153294_j42812234006951_2_alg».proof.Proof.Gen.KernelIdeal.Skeleton
import proofs.«153294_j42812234006951_2_alg».proof.Proof.Gen.KernelIdeal.Loops
import proofs.«153294_j42812234006951_2_alg».proof.Proof.Gen.KernelIdeal.Launch
import proofs.«153294_j42812234006951_2_alg».proof.Proof.Gen.KernelIdeal.Points
import proofs.«153294_j42812234006951_2_alg».proof.Proof.Gen.KernelIdeal.Frame
import proofs.«153294_j42812234006951_2_alg».proof.Proof.Gen.ReferenceIdeal
import proofs.«153294_j42812234006951_2_alg».proof.Proof.Gen.ReferenceIdeal.Run
import proofs.«153294_j42812234006951_2_alg».proof.Proof.Gen.ReferenceIdeal.Read
import proofs.«153294_j42812234006951_2_alg».proof.Proof.Gen.Pre_finite_inputs
import proofs.«153294_j42812234006951_2_alg».proof.Proof.KernelTail
import proofs.«153294_j42812234006951_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged: the generated frame. -/
theorem frame_p [Cert.Kernel.Facts] [Cert.Pre_finite_inputs.Facts] : Cert.frame_Kernel :=
  fun m ρ _ => Cert.Kernel.Gen.frame m ρ

/-- The idealized kernel likewise. -/
theorem frame_pi [Cert.KernelIdeal.Facts] [Cert.Pre_finite_inputs.Facts] : Cert.frame_KernelIdeal :=
  fun m ρ _ => Cert.KernelIdeal.Gen.frame m ρ

/-- The reference runs and leaves its arguments unchanged: its generated run with the result dropped. -/
theorem frame_ri [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- From memories agreeing on the arguments both programs end with the specification's result of the arguments:
    the kernel by its frame run read through the two output arrays and the host lines after the region, the reference
    by its run read one operation at a time. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => fun _ => Cert.RowMath.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun r h c => ⟨?_, ?_, ?_⟩) (Cert.KernelIdeal.Gen.run_main (F := Ideal) m ρ)
    · exact ((h c).2 Cert.KernelIdeal.main_v11 (Pipeline.mem_restRefs_of Cert.KernelIdeal.main_v11 (by decide) (by decide))).trans
        (funext fun i => Cert.KernelValue.kernel_result m c i)
    · exact ((h c).2 Cert.KernelIdeal.main_arg0 (Pipeline.mem_restRefs_of Cert.KernelIdeal.main_arg0 (by decide) (by decide))).trans
        (Cert.KernelIdeal.Gen.W_main_arg0 m (Cert.KernelIdeal.Gen.dats m) c)
    · exact ((h c).2 Cert.KernelIdeal.main_arg1 (Pipeline.mem_restRefs_of Cert.KernelIdeal.main_arg1 (by decide) (by decide))).trans
        (Cert.KernelIdeal.Gen.W_main_arg1 m (Cert.KernelIdeal.Gen.dats m) c)
  · refine (θ_run Cert.ReferenceIdeal.defs _ _).mono (fun r h c => ⟨?_, (h c).2.1, (h c).2.2⟩)
      (Cert.ReferenceIdeal.Value.run (F := Ideal) m' ρ')
    refine ((h c).1.trans (Cert.ReferenceIdeal.Read.val_main_v35_eq m' c)).trans ?_
    rw [(hagree c).1, (hagree c).2]
    exact funext fun i => Cert.RefValue.result_eq _ _ i

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
